-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x10 .f32) (main_arg15 : FVec F S10 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x10 .f32 := Host.absf main_arg14
  let main_cst_22 : FVec F S_ .f32 := constant S_ .f32 0x7F800000#32
  let main_v60 : FVec F S64x10 .f32 := broadcastInDim S64x10 ![] bcast_S_S64x10 main_cst_22
  let main_v61 : IVec S64x10 1 := cmpf .olt main_v59 main_v60
  let main_c_23 : IVec S_ 1 := constantI S_ 1 1#1
  let main_v62 : IVec S_ 1 := (fun x v => Host.reduce IntOp.andi x v reducesTo_S64x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S128x64 .f32) (main_arg13 : FVec F S64 .f32) (main_arg14 : FVec F S64x10 .f32) (main_arg15 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x64 .f32) (main_arg13 : FVec F S64 .f32) (main_arg14 : FVec F S64x10 .f32) (main_arg15 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x64 .f32) (main_arg13 : FVec F S64 .f32) (main_arg14 : FVec F S64x10 .f32) (main_arg15 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S2000x128 : Shape := ⟨2, ![2000, 128]⟩
abbrev S1x128 : Shape := ⟨2, ![1, 128]⟩
abbrev S500x128 : Shape := ⟨2, ![500, 128]⟩
abbrev S500x1 : Shape := ⟨2, ![500, 1]⟩
abbrev S500x10 : Shape := ⟨2, ![500, 10]⟩
abbrev S500x64 : Shape := ⟨2, ![500, 64]⟩
abbrev S1x64 : Shape := ⟨2, ![1, 64]⟩
abbrev S1x10 : Shape := ⟨2, ![1, 10]⟩
abbrev S500 : Shape := ⟨1, ![500]⟩

abbrev nBuf : Space → Nat
  | .hbm => 111
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x64, .f32⟩
  | .hbm, ⟨13, _⟩ => ⟨S64, .f32⟩
  | .hbm, ⟨14, _⟩ => ⟨S64x10, .f32⟩
  | .hbm, ⟨15, _⟩ => ⟨S10, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S_, .f32⟩
  | .hbm, ⟨34, _⟩ => ⟨S600000x1, .f32⟩
  | .hbm, ⟨35, _⟩ => ⟨S_, .f32⟩
  | .hbm, ⟨36, _⟩ => ⟨S50000x1, .f32⟩
  | .hbm, ⟨37, _⟩ => ⟨S600000x1, .i32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S_, .f32⟩
  | .hbm, ⟨59, _⟩ => ⟨S600000x1, .f32⟩
  | .hbm, ⟨60, _⟩ => ⟨S_, .f32⟩
  | .hbm, ⟨61, _⟩ => ⟨S50000x1, .f32⟩
  | .hbm, ⟨62, _⟩ => ⟨S600000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S_, .f32⟩
  | .hbm, ⟨84, _⟩ => ⟨S600000x1, .f32⟩
  | .hbm, ⟨85, _⟩ => ⟨S_, .f32⟩
  | .hbm, ⟨86, _⟩ => ⟨S50000x1, .f32⟩
  | .hbm, ⟨87, _⟩ => ⟨S600000x1, .i32⟩
  | .hbm, ⟨88, _⟩ => ⟨S50000x1, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S500x128, .f32⟩
  | .hbm, ⟨97, _⟩ => ⟨S50000x1, .i32⟩
  | .hbm, ⟨98, _⟩ => ⟨S500x128, .f32⟩
  | .hbm, ⟨99, _⟩ => ⟨S_, .f32⟩
  | .hbm, ⟨100, _⟩ => ⟨S50000x1, .f32⟩
  | .hbm, ⟨101, _⟩ => ⟨S_, .f32⟩
  | .hbm, ⟨102, _⟩ => ⟨S500x1, .f32⟩
  | .hbm, ⟨103, _⟩ => ⟨S50000x1, .i32⟩
  | .hbm, ⟨104, _⟩ => ⟨S500x1, .f32⟩
  | .hbm, ⟨105, _⟩ => ⟨S_, .f32⟩
  | .hbm, ⟨106, _⟩ => ⟨S500x1, .f32⟩
  | .hbm, ⟨107, _⟩ => ⟨S500x1, .f32⟩
  | .hbm, ⟨108, _⟩ => ⟨S500x128, .f32⟩
  | .hbm, ⟨109, _⟩ => ⟨S500x128, .f32⟩
  | .hbm, ⟨110, _⟩ => ⟨S500x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S500x128, .f32⟩
  | .local _ .vmem, ⟨28, _⟩ => ⟨S128x64, .f32⟩
  | .local _ .vmem, ⟨29, _⟩ => ⟨S64, .f32⟩
  | .local _ .vmem, ⟨30, _⟩ => ⟨S64x10, .f32⟩
  | .local _ .vmem, ⟨31, _⟩ => ⟨S10, .f32⟩
  | .local _ .vmem, ⟨32, _⟩ => ⟨S500x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_16 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_17 : Ref sig .tc := ⟨.hbm, 99, rfl⟩
abbrev main_v64 : Ref sig .tc := ⟨.hbm, 100, rfl⟩
abbrev main_cst_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S500x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S500x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S500x64 : S1x64.Broadcasts S500x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S500x10 : S1x10.Broadcasts S500x10
  reduces_S500x10_S500 : S500x10.Reduces [1] S500
  shapeCasts_S500_S500x1 : S500.ShapeCasts S500x1
  broadcasts_S500x1_S500x10 : S500x1.Broadcasts S500x10
  inb_S500x10_S500x10_0_0 : ∀ a, (![0, 0] : Fin 2 → Nat) a + S500x10.size a ≤ S500x10.size a
  h_S500x10 : 0 < S500x10.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S2000x128_S128x128_S2000x128_1_0_0_1_n_n_wf : DotDims.WF S2000x128 S128x128 S2000x128 [1] [0] [0] [1] [] []
  scatter_S500x128_S50000x1_S50000x128_1_0_0_1_wf : ScatterDims.WF S500x128 S50000x1 S50000x128 [1] [0] [0] 1
  scatter_S500x1_S50000x1_S50000x1_1_0_0_1_wf : ScatterDims.WF S500x1 S50000x1 S50000x1 [1] [0] [0] 1
  dot_S500x128_S128x64_S500x64_1_0_0_1_n_n_wf : DotDims.WF S500x128 S128x64 S500x64 [1] [0] [0] [1] [] []
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S500x128.size a ≤ S500x128.size a
  hwx3_0 : ∀ i : grid3.Coords, EltTy.bits .f32 = 32 ∨ (Rect.block (s := S500x128) S500x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S10.size a ≤ S10.size a
  hwx3_4 : ∀ i : grid3.Coords, EltTy.bits .f32 = 32 ∨ (Rect.block (s := S10) S10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S500x10.size a ≤ S500x10.size a
  hwx3_5 : ∀ i : grid3.Coords, EltTy.bits .f32 = 32 ∨ (Rect.block (s := S500x10) S500x10.size (cc3_transform_5 i) (hinb3_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v71) S500x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S64x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S500x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S500x128 : Shape := ⟨2, ![500, 128]⟩
abbrev S500x1 : Shape := ⟨2, ![500, 1]⟩
abbrev S500x64 : Shape := ⟨2, ![500, 64]⟩
abbrev S1x64 : Shape := ⟨2, ![1, 64]⟩
abbrev S500x10 : Shape := ⟨2, ![500, 10]⟩
abbrev S1x10 : Shape := ⟨2, ![1, 10]⟩
abbrev S500 : Shape := ⟨1, ![500]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x64, .f32⟩
  | 13 => ⟨S64, .f32⟩
  | 14 => ⟨S64x10, .f32⟩
  | 15 => ⟨S10, .f32⟩
  | 16 => ⟨S1x600000, .i32⟩
  | 17 => ⟨S600000, .i32⟩
  | 18 => ⟨S1x600000, .i32⟩
  | 19 => ⟨S600000, .i32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S50000x128, .f32⟩
  | 31 => ⟨S600000x1, .i32⟩
  | 32 => ⟨S50000x128, .f32⟩
  | 33 => ⟨S_, .f32⟩
  | 34 => ⟨S600000x1, .f32⟩
  | 35 => ⟨S_, .f32⟩
  | 36 => ⟨S50000x1, .f32⟩
  | 37 => ⟨S600000x1, .i32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S_, .f32⟩
  | 67 => ⟨S600000x1, .f32⟩
  | 68 => ⟨S_, .f32⟩
  | 69 => ⟨S50000x1, .f32⟩
  | 70 => ⟨S600000x1, .i32⟩
  | 71 => ⟨S50000x1, .f32⟩
  | 72 => ⟨S_, .f32⟩
  | 73 => ⟨S50000x1, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S_, .f32⟩
  | 100 => ⟨S600000x1, .f32⟩
  | 101 => ⟨S_, .f32⟩
  | 102 => ⟨S50000x1, .f32⟩
  | 103 => ⟨S600000x1, .i32⟩
  | 104 => ⟨S50000x1, .f32⟩
  | 105 => ⟨S_, .f32⟩
  | 106 => ⟨S50000x1, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S500x128, .f32⟩
  | 121 => ⟨S50000x1, .i32⟩
  | 122 => ⟨S500x128, .f32⟩
  | 123 => ⟨S_, .f32⟩
  | 124 => ⟨S50000x1, .f32⟩
  | 125 => ⟨S_, .f32⟩
  | 126 => ⟨S500x1, .f32⟩
  | 127 => ⟨S50000x1, .i32⟩
  | _ => ⟨S50000x128, .f32⟩

abbrev hbmTy0_1 (i : Nat) : BufTy := match i % 128 with
  | 0 => ⟨S500x1, .f32⟩
  | 1 => ⟨S_, .f32⟩
  | 2 => ⟨S500x1, .f32⟩
  | 3 => ⟨S500x1, .f32⟩
  | 4 => ⟨S500x128, .f32⟩
  | 5 => ⟨S500x128, .f32⟩
  | 6 => ⟨S500x64, .f32⟩
  | 7 => ⟨S1x64, .f32⟩
  | 8 => ⟨S500x64, .f32⟩
  | 9 => ⟨S500x64, .f32⟩
  | 10 => ⟨S_, .f32⟩
  | 11 => ⟨S500x64, .f32⟩
  | 12 => ⟨S500x64, .f32⟩
  | 13 => ⟨S500x10, .f32⟩
  | 14 => ⟨S1x10, .f32⟩
  | 15 => ⟨S500x10, .f32⟩
  | 16 => ⟨S500x10, .f32⟩
  | 17 => ⟨S_, .f32⟩
  | 18 => ⟨S500, .f32⟩
  | 19 => ⟨S_, .f32⟩
  | 20 => ⟨S500, .f32⟩
  | 21 => ⟨S500, .f32⟩
  | 22 => ⟨S500x1, .f32⟩
  | 23 => ⟨S500x10, .f32⟩
  | 24 => ⟨S500x10, .f32⟩
  | 25 => ⟨S500x10, .f32⟩
  | 26 => ⟨S_, .f32⟩
  | 27 => ⟨S500, .f32⟩
  | 28 => ⟨S500x1, .f32⟩
  | 29 => ⟨S500x1, .f32⟩
  | 30 => ⟨S500x10, .f32⟩
  | 31 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_cst : Ref sig .tc := ⟨.hbm, 50, rfl⟩
abbrev main_call0_v0 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call2_cst : Ref sig .tc := ⟨.hbm, 116, rfl⟩
abbrev main_call2_v0 : Ref sig .tc := ⟨.hbm, 117, rfl⟩
abbrev main_v78 : Ref sig .tc := ⟨.hbm, 118, rfl⟩
abbrev main_cst_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_17 : Ref sig .tc := ⟨.hbm, 123, rfl⟩
abbrev main_v82 : Ref sig .tc := ⟨.hbm, 124, rfl⟩
abbrev main_cst_18 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_19 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call3_cst : Ref sig .tc := ⟨.hbm, 138, rfl⟩
abbrev main_call3_v0 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call4_cst : Ref sig .tc := ⟨.hbm, 145, rfl⟩
abbrev main_call4_v0 : Ref sig .tc := ⟨.hbm, 146, rfl⟩
abbrev main_call4_cst_0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_cst_1 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_v99 : Ref sig .tc := ⟨.hbm, 159, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S500x64 : S_.BroadcastsInDim S500x64 (![] : Fin 0 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  h_S_ : 0 < S_.numel
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  scatter_S500x1_S50000x1_S50000x1_1_0_0_1_wf : ScatterDims.WF S500x1 S50000x1 S50000x1 [1] [0] [0] 1
  dot_S500x128_S128x64_S500x64_1_0_0_1_n_n_wf : DotDims.WF S500x128 S128x64 S500x64 [1] [0] [0] [1] [] []
  dot_S500x64_S64x10_S500x10_1_0_0_1_n_n_wf : DotDims.WF S500x64 S64x10 S500x10 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.Spec.lean ====
import Idealize.ShloMosaic.PureOps.Ideal
import Idealize.ShloMosaic.Lib.ValueIdx

/-!
# The network, entry by entry, on the extended reals

Three mean-aggregating graph-convolution layers, a mean pool and a two-layer head with a row-wise log-softmax,
each written as ONE function of whole arrays at an index. Nothing here mentions a program: the arrays are
plain functions from the index set of a literal shape to the extended reals.

* A layer's entry at row `r`, column `j` is `max (⟨a_r, Wl_j⟩ + ⟨x_r, Wr_j⟩ + b_j) 0` where `a` is the
  neighbourhood mean and `x` the node's own features. The two programs add the three summands in different
  orders (`(p + q) + b` against `(p + b) + q`); addition of extended reals is commutative and associative
  also at the infinities, so the two orders are one function (`sageR_eq_sage`), with no finiteness needed.
* The head's entry is `s_j - log (∑ₖ exp s_k)` with `s_j = z_j - M`, `z` the row of logits and `M` the row's
  maximum, taken as the fold of `max` over the row from `-∞` and joined once more with `-∞`, exactly as both
  programs take it. The words `0` and `-∞` stay as the bit patterns the programs print; they are the same
  patterns on both sides and are never evaluated.
-/

noncomputable section

namespace Cert.GraphSage

open Idealize.ShloMosaic Idealize.ShloMosaic.ValueIdx

/-- A matrix of extended reals with `n` rows and `m` columns. -/
abbrev Arr2 (n m : Nat) : Type := (⟨2, ![n, m]⟩ : Shape).Idx → EReal
/-- A vector of extended reals of length `n`. -/
abbrev Arr1 (n : Nat) : Type := (⟨1, ![n]⟩ : Shape).Idx → EReal

/-- The value of the all-zero single-precision pattern (the floor of a rectifier). -/
abbrev zeroWord : EReal := Ideal.ofBits .f32 0x00000000#32
/-- The value of the pattern of `-∞` (where a row maximum starts). -/
abbrev negInfWord : EReal := Ideal.ofBits .f32 0xFF800000#32

/-! ## One graph-convolution layer -/

/-- Row `r`, column `j` of a layer: the aggregated row against `Wl`, plus the node's own row against `Wr`, plus
    the bias, floored at zero — the summands in the order `(p + q) + b`. -/
def sageAt {n : Nat} (A X : Arr2 n 128) (Wl Wr : Arr2 128 128) (b : Arr1 128) (r : Fin n) (j : Fin 128) : EReal :=
  max (((∑ k : Fin 128, A (ix2 r k) * Wl (ix2 k j)) + (∑ k : Fin 128, X (ix2 r k) * Wr (ix2 k j))) + b (ix1 j)) zeroWord

/-- The same entry with the summands in the order `(p + b) + q`. -/
def sageRAt {n : Nat} (A X : Arr2 n 128) (Wl Wr : Arr2 128 128) (b : Arr1 128) (r : Fin n) (j : Fin 128) : EReal :=
  max (((∑ k : Fin 128, A (ix2 r k) * Wl (ix2 k j)) + b (ix1 j)) + (∑ k : Fin 128, X (ix2 r k) * Wr (ix2 k j))) zeroWord

/-- A layer as an array. -/
def sage {n : Nat} (A X : Arr2 n 128) (Wl Wr : Arr2 128 128) (b : Arr1 128) : Arr2 n 128 :=
  fun i => sageAt A X Wl Wr b (i 0) (i 1)

/-- The layer in the other order of summation, as an array. -/
def sageR {n : Nat} (A X : Arr2 n 128) (Wl Wr : Arr2 128 128) (b : Arr1 128) : Arr2 n 128 :=
  fun i => sageRAt A X Wl Wr b (i 0) (i 1)

theorem sage_ix2 {n : Nat} (A X : Arr2 n 128) (Wl Wr : Arr2 128 128) (b : Arr1 128) (r : Fin n) (j : Fin 128) :
    sage A X Wl Wr b (ix2 r j) = sageAt A X Wl Wr b r j := rfl

theorem sageR_ix2 {n : Nat} (A X : Arr2 n 128) (Wl Wr : Arr2 128 128) (b : Arr1 128) (r : Fin n) (j : Fin 128) :
    sageR A X Wl Wr b (ix2 r j) = sageRAt A X Wl Wr b r j := rfl

/-- The two orders of summation give one entry: `(p + b) + q = (p + q) + b` in any commutative additive
    semigroup, the extended reals with their infinities included. -/
theorem sageRAt_eq_sageAt {n : Nat} (A X : Arr2 n 128) (Wl Wr : Arr2 128 128) (b : Arr1 128) (r : Fin n) (j : Fin 128) :
    sageRAt A X Wl Wr b r j = sageAt A X Wl Wr b r j := by
  unfold sageRAt sageAt
  rw [add_right_comm]

theorem sageR_eq_sage {n : Nat} (A X : Arr2 n 128) (Wl Wr : Arr2 128 128) (b : Arr1 128) :
    sageR A X Wl Wr b = sage A X Wl Wr b :=
  funext fun i => sageRAt_eq_sageAt A X Wl Wr b (i 0) (i 1)

/-! ## The head -/

/-- The hidden layer's entry: the pooled row against `W4`, plus the bias, floored at zero. -/
def hiddenAt (g : Arr2 500 128) (W4 : Arr2 128 64) (b4 : Arr1 64) (r : Fin 500) (j : Fin 64) : EReal :=
  max ((∑ k : Fin 128, g (ix2 r k) * W4 (ix2 k j)) + b4 (ix1 j)) zeroWord

/-- A logit: the hidden row against `W5`, plus the bias. -/
def logitAt (g : Arr2 500 128) (W4 : Arr2 128 64) (b4 : Arr1 64) (W5 : Arr2 64 10) (b5 : Arr1 10) (r : Fin 500) (j : Fin 10) : EReal :=
  (∑ k : Fin 64, hiddenAt g W4 b4 r k * W5 (ix2 k j)) + b5 (ix1 j)

/-- A row's maximum as both programs take it: the fold of `max` over the row starting from `-∞`, joined with `-∞`. -/
def rowMax (z : Fin 10 → EReal) : EReal :=
  max negInfWord ((Finset.univ : Finset (Fin 10)).fold max negInfWord z)

/-- The log-softmax of a row at column `j`: with `s = z - rowMax z`, the entry `s j - log (∑ₖ exp (s k))`. -/
def logSoftmaxAt (z : Fin 10 → EReal) (j : Fin 10) : EReal :=
  (z j - rowMax z) - Ideal.log (∑ k : Fin 10, Ideal.exp (z k - rowMax z))

/-- The head's entry at row `r`, column `j`. -/
def mlpAt (g : Arr2 500 128) (W4 : Arr2 128 64) (b4 : Arr1 64) (W5 : Arr2 64 10) (b5 : Arr1 10) (r : Fin 500) (j : Fin 10) : EReal :=
  logSoftmaxAt (fun k => logitAt g W4 b4 W5 b5 r k) j

/-- The head as an array. -/
def mlp (g : Arr2 500 128) (W4 : Arr2 128 64) (b4 : Arr1 64) (W5 : Arr2 64 10) (b5 : Arr1 10) : Arr2 500 10 :=
  fun i => mlpAt g W4 b4 W5 b5 (i 0) (i 1)

theorem mlp_ix2 (g : Arr2 500 128) (W4 : Arr2 128 64) (b4 : Arr1 64) (W5 : Arr2 64 10) (b5 : Arr1 10) (r : Fin 500) (j : Fin 10) :
    mlp g W4 b4 W5 b5 (ix2 r j) = mlpAt g W4 b4 W5 b5 r j := rfl

end Cert.GraphSage

end
-- ==== Proof.HostChain.lean ====
import proofs.«179098_j48155173323149_1_alg».proof.KernelIdeal
import proofs.«179098_j48155173323149_1_alg».proof.Proof.Gen.KernelIdeal

/-!
# The aggregation steps both programs share

Both programs compute a neighbourhood mean and the pooled mean with the SAME host operations: gather the source
rows, add them up at their destinations, count the edges arriving at each destination, and divide the sums by
the counts floored at one. Each is named here once, as one function of whole arrays, in the operations' own
spelling; nothing below ever opens these functions — the two programs apply the same function to arrays that are
proved equal.

* `srcOf` / `dstOf`: rows 0 and 1 of the edge list.
* `aggr X s d`: the mean over incoming edges of the rows of `X`, for source indices `s` (a negative index
  wrapped by the number of rows, as the gather's index normalisation prints) and destinations `d`.
* `pool H b`: the mean of the rows of `H` over each of the 500 segments named by `b`.
-/

noncomputable section

namespace Cert.GraphSage

open Idealize.ShloMosaic Cert.KernelIdeal Cert.KernelIdeal.Gen

variable {F : FTy → Type} [FloatOps F]

/-- The edges' source indices: row 0 of the edge list. -/
def srcOf (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The edges' destination indices: row 1 of the edge list. -/
def dstOf (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- The neighbourhood mean: the rows of `X` at the sources, summed at the destinations, divided by the number of
    incoming edges floored at one. -/
def aggr (X : (⟨S50000x128, .f32⟩ : BufTy).Contents (Elt F)) (s d : (⟨S600000, .i32⟩ : BufTy).Contents (Elt F)) :
    (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 d) (Host.gather gather_S50000x128_S600000x1_S600000x128_1_0_n_n_0_1_1128 X (broadcastInDim S600000x1 ![0] bcast_S600000_S600000x1_0 (select (cmpi .slt s (broadcastInDim S600000 ![] bcast_S_S600000 (constantI S_ 32 0#32))) (addi s (broadcastInDim S600000 ![] bcast_S_S600000 (constantI S_ 32 50000#32))) s)))) (broadcastInDim S50000x128 ![0, 1] bcast_S50000x1_S50000x128_0_1 (maximumf (Host.scatterAdd scatter_S50000x1_S600000x1_S600000x1_1_0_0_1 (broadcastInDim S50000x1 ![] bcast_S_S50000x1 (constant S_ .f32 0x00000000#32)) (broadcastInDim S600000x1 ![0] bcast_S600000_S600000x1_0 d) (broadcastInDim S600000x1 ![] bcast_S_S600000x1 (constant S_ .f32 0x3F800000#32))) (broadcastInDim S50000x1 ![] bcast_S_S50000x1 (constant S_ .f32 0x3F800000#32))))

/-- The pooled mean: the rows of `H` summed per segment, divided by the segment's size floored at one. -/
def pool (H : (⟨S50000x128, .f32⟩ : BufTy).Contents (Elt F)) (b : (⟨S50000, .i32⟩ : BufTy).Contents (Elt F)) :
    (⟨S500x128, .f32⟩ : BufTy).Contents (Elt F) :=
  Host.divf (Host.scatterAdd scatter_S500x128_S50000x1_S50000x128_1_0_0_1 (broadcastInDim S500x128 ![] bcast_S_S500x128 (constant S_ .f32 0x00000000#32)) (broadcastInDim S50000x1 ![0] bcast_S50000_S50000x1_0 b) H) (broadcastInDim S500x128 ![0, 1] bcast_S500x1_S500x128_0_1 (maximumf (Host.scatterAdd scatter_S500x1_S50000x1_S50000x1_1_0_0_1 (broadcastInDim S500x1 ![] bcast_S_S500x1 (constant S_ .f32 0x00000000#32)) (broadcastInDim S50000x1 ![0] bcast_S50000_S50000x1_0 b) (broadcastInDim S50000x1 ![] bcast_S_S50000x1 (constant S_ .f32 0x3F800000#32))) (broadcastInDim S500x1 ![] bcast_S_S500x1 (constant S_ .f32 0x3F800000#32))))

end Cert.GraphSage

end
-- ==== Proof.Network.lean ====
import proofs.«179098_j48155173323149_1_alg».proof.Proof.Spec
import proofs.«179098_j48155173323149_1_alg».proof.Proof.HostChain

/-!
# The whole network as one function of its sixteen arguments

Three layers, each fed the neighbourhood mean of the previous layer's output, then the pooled mean and the head.
The layer is a parameter, so that the two orders in which the programs add a layer's three summands give two
instances of ONE expression; they are equal because the two layers are (`Cert.GraphSage.sageR_eq_sage`).
-/

noncomputable section

namespace Cert.GraphSage

open Idealize.ShloMosaic Cert.KernelIdeal

/-- The type of a layer: neighbourhood mean, own features, the two weight matrices, the bias. -/
abbrev Layer : Type := Arr2 50000 128 → Arr2 50000 128 → Arr2 128 128 → Arr2 128 128 → Arr1 128 → Arr2 50000 128

/-- The network over a given layer: `x` the node features, `ei` the edge list, `bt` the segment of each node,
    then per layer the aggregate's weights, the bias and the root weights, then the head's two affine maps. -/
def network (layer : Layer) (x : Arr2 50000 128) (ei : (⟨S2x600000, .i32⟩ : BufTy).Contents (Elt Ideal))
    (bt : (⟨S50000, .i32⟩ : BufTy).Contents (Elt Ideal))
    (Wl1 : Arr2 128 128) (bl1 : Arr1 128) (Wr1 : Arr2 128 128)
    (Wl2 : Arr2 128 128) (bl2 : Arr1 128) (Wr2 : Arr2 128 128)
    (Wl3 : Arr2 128 128) (bl3 : Arr1 128) (Wr3 : Arr2 128 128)
    (W4 : Arr2 128 64) (b4 : Arr1 64) (W5 : Arr2 64 10) (b5 : Arr1 10) : Arr2 500 10 :=
  let h1 := layer (aggr (F := Ideal) x (srcOf ei) (dstOf ei)) x Wl1 Wr1 bl1
  let h2 := layer (aggr (F := Ideal) h1 (srcOf ei) (dstOf ei)) h1 Wl2 Wr2 bl2
  let h3 := layer (aggr (F := Ideal) h2 (srcOf ei) (dstOf ei)) h2 Wl3 Wr3 bl3
  mlp (pool (F := Ideal) h3 bt) W4 b4 W5 b5

/-- The two orders of a layer's summation are one layer, so one network. -/
theorem network_sageR_eq : network (sageR (n := 50000)) = network (sage (n := 50000)) := by
  have h : (sageR (n := 50000) : Layer) = sage (n := 50000) := by
    funext A X Wl Wr b
    exact sageR_eq_sage A X Wl Wr b
  rw [h]

end Cert.GraphSage

end
-- ==== Proof.KernelRun.lean ====
import proofs.«179098_j48155173323149_1_alg».proof.Proof.Gen.KernelIdeal.Frame

/-!
# The kernel's run, with its result buffer named

Every weakly fair execution of the kernel's program terminates without a fault, leaves the sixteen argument
arrays as launched, and leaves the result buffer at what the fold of buffer contents through the program's
segments holds there after the last region (`Gen.W8`): the launch over the segments, with the last thread
state read at the result buffer as it is read at each argument.
-/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v72) = W8 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v72 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.HostStretch.lean ====
import proofs.«179098_j48155173323149_1_alg».proof.Proof.HostChain
import proofs.«179098_j48155173323149_1_alg».proof.Proof.Gen.KernelIdeal.Launch
import Idealize.ShloMosaic.Lib.StableHlo.Run

/-!
# What each stretch of host operations of the kernel's program computes

Between its regions the kernel's program runs four straight lines of host operations. From ANY buffer contents
`Wv`, each line leaves in its last buffer one of the shared aggregation functions of the contents it started
from: the first line the neighbourhood mean of the node features (and, on the way, the two rows of the edge list,
which the later lines read again), the second and third the neighbourhood mean of the previous region's output,
the fourth the pooled mean. The contents are a variable: each statement is used at the contents the run has
reached when the line starts.
-/

noncomputable section

namespace Cert.KernelIdeal.HostValue

open Idealize.ShloMosaic Idealize.ShloMosaic.TcCoe Idealize.ShloMosaic.StableHlo
open Cert.KernelIdeal Cert.KernelIdeal.Gen Cert.GraphSage

variable {F : FTy → Type} [FloatOps F] (Wv : Valuation τ sig (Elt F))

/-- The first line ends with the neighbourhood mean of the features, over the edge list's two rows. -/
theorem host0_aggr :
    after hostOps0 Wv (Proc.devRef .tc main_v21)
      = aggr (Wv (Proc.devRef .tc main_arg0)) (srcOf (Wv (Proc.devRef .tc main_arg1))) (dstOf (Wv (Proc.devRef .tc main_arg1))) := by
  after_results_simp <;> rfl

/-- It leaves the edges' sources in `main_v1` … -/
theorem host0_src : after hostOps0 Wv (Proc.devRef .tc main_v1) = srcOf (Wv (Proc.devRef .tc main_arg1)) := by
  after_results_simp <;> rfl

/-- … and their destinations in `main_v3`. -/
theorem host0_dst : after hostOps0 Wv (Proc.devRef .tc main_v3) = dstOf (Wv (Proc.devRef .tc main_arg1)) := by
  after_results_simp <;> rfl

/-- The second line: the neighbourhood mean of the first region's output, over the rows kept from the first line. -/
theorem host1_aggr :
    after hostOps1 Wv (Proc.devRef .tc main_v40)
      = aggr (Wv (Proc.devRef .tc main_v22)) (Wv (Proc.devRef .tc main_v1)) (Wv (Proc.devRef .tc main_v3)) := by
  after_results_simp <;> rfl

/-- The third line: the same of the second region's output. -/
theorem host2_aggr :
    after hostOps2 Wv (Proc.devRef .tc main_v59)
      = aggr (Wv (Proc.devRef .tc main_v41)) (Wv (Proc.devRef .tc main_v1)) (Wv (Proc.devRef .tc main_v3)) := by
  after_results_simp <;> rfl

/-- The fourth line: the pooled mean of the third region's output over the nodes' segments. -/
theorem host3_pool :
    after hostOps3 Wv (Proc.devRef .tc main_v71)
      = pool (Wv (Proc.devRef .tc main_v60)) (Wv (Proc.devRef .tc main_arg2)) := by
  after_results_simp <;> rfl

end Cert.KernelIdeal.HostValue

end
-- ==== Proof.ResultValue.lean ====
import proofs.«179098_j48155173323149_1_alg».proof.Proof.Network
import proofs.«179098_j48155173323149_1_alg».proof.Proof.HostStretch
import proofs.«179098_j48155173323149_1_alg».proof.Proof.Gen.KernelIdeal.Frame

/-!
# The kernel's result buffer is the network function of the arguments

The kernel's program is eight segments: a line of host operations, a region, … four times. The run keeps a fold
of buffer contents through them (`Gen.W0` at launch … `Gen.W8` after the last region). This module walks that
fold forward and says, boundary by boundary, what the buffers that matter hold as functions of the launch
memory `m`:

* after each line of host operations, its last buffer holds the shared aggregation function of what the
  previous boundary held (HostStretch.lean);
* after each region, its output array holds the region's value at the region's entry contents — taken here as
  HYPOTHESES `RegionValues`, one per region, proved elsewhere from the bodies;
* every other buffer a later segment reads is carried unchanged: a line of host operations leaves alone what it
  does not write, a region leaves alone every buffer but its output array (an input window's array ends as it
  was entered; a buffer that is no window's array is not touched).

Composed, the result buffer at the last boundary is `network sage` of the sixteen argument arrays.
-/

set_option maxRecDepth 16384

noncomputable section

namespace Cert.KernelIdeal.ResultValue

open Idealize.ShloMosaic Idealize.ShloMosaic.TcCoe Idealize.SL.Sem
open Cert.KernelIdeal Cert.KernelIdeal.Gen Cert.GraphSage Cert.KernelIdeal.HostValue

/-- What each region leaves in its output array, at any entry contents `V`: a layer of the entry contents of its
    five input arrays (regions 0–2), the head of them (region 3). -/
structure RegionValues : Prop where
  r0 : ∀ (V : (c : Dev nD) → (b : Ref sig .tc) → Buf (Elt Ideal) ((c : Thread nD τ).loc b)) (c : Dev nD),
    (dat0 (F := Ideal) V c).arrAt 5 cfg0.N
      = sage (n := 50000) (V c main_v21) (V c main_arg0) (V c main_arg3) (V c main_arg5) (V c main_arg4)
  r1 : ∀ (V : (c : Dev nD) → (b : Ref sig .tc) → Buf (Elt Ideal) ((c : Thread nD τ).loc b)) (c : Dev nD),
    (dat1 (F := Ideal) V c).arrAt 5 cfg1.N
      = sage (n := 50000) (V c main_v40) (V c main_v22) (V c main_arg6) (V c main_arg8) (V c main_arg7)
  r2 : ∀ (V : (c : Dev nD) → (b : Ref sig .tc) → Buf (Elt Ideal) ((c : Thread nD τ).loc b)) (c : Dev nD),
    (dat2 (F := Ideal) V c).arrAt 5 cfg2.N
      = sage (n := 50000) (V c main_v59) (V c main_v41) (V c main_arg9) (V c main_arg11) (V c main_arg10)
  r3 : ∀ (V : (c : Dev nD) → (b : Ref sig .tc) → Buf (Elt Ideal) ((c : Thread nD τ).loc b)) (c : Dev nD),
    (dat3 (F := Ideal) V c).arrAt 5 cfg3.N
      = mlp (V c main_v71) (V c main_arg12) (V c main_arg13) (V c main_arg14) (V c main_arg15)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## The values along the way, as functions of the launch memory -/

/-- The edges' sources and destinations. -/
abbrev src : (⟨S600000, .i32⟩ : BufTy).Contents (Elt Ideal) := srcOf (F := Ideal) (arg m c main_arg1)
abbrev dst : (⟨S600000, .i32⟩ : BufTy).Contents (Elt Ideal) := dstOf (F := Ideal) (arg m c main_arg1)
/-- The first layer's neighbourhood mean and output. -/
abbrev A1 : Arr2 50000 128 := aggr (F := Ideal) (arg m c main_arg0) (src m c) (dst m c)
abbrev H1 : Arr2 50000 128 := sage (n := 50000) (A1 m c) (arg m c main_arg0) (arg m c main_arg3) (arg m c main_arg5) (arg m c main_arg4)
/-- The second layer's. -/
abbrev A2 : Arr2 50000 128 := aggr (F := Ideal) (H1 m c) (src m c) (dst m c)
abbrev H2 : Arr2 50000 128 := sage (n := 50000) (A2 m c) (H1 m c) (arg m c main_arg6) (arg m c main_arg8) (arg m c main_arg7)
/-- The third layer's. -/
abbrev A3 : Arr2 50000 128 := aggr (F := Ideal) (H2 m c) (src m c) (dst m c)
abbrev H3 : Arr2 50000 128 := sage (n := 50000) (A3 m c) (H2 m c) (arg m c main_arg9) (arg m c main_arg11) (arg m c main_arg10)
/-- The pooled mean. -/
abbrev G : Arr2 500 128 := pool (F := Ideal) (H3 m c) (arg m c main_arg2)

/-! ## A line of host operations leaves alone what it does not write -/

/-- Closes `after ops W b = W b` for a buffer `b` that no operation of the literal line `ops` writes. -/
local macro "keep_host" : tactic =>
  `(tactic| (refine StableHlo.after_of_forall_not_mem _ _ (List.forall_iff_forall_mem.mp ?_)
             simp only [hostOps0, hostOps1, hostOps2, hostOps3, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-! ## Boundary 1: after the first line -/

theorem w1_v21 : W1 m ρ c (Proc.devRef .tc main_v21) = A1 m c := host0_aggr (W0 m ρ c)
theorem w1_v1 : W1 m ρ c (Proc.devRef .tc main_v1) = src m c := host0_src (W0 m ρ c)
theorem w1_v3 : W1 m ρ c (Proc.devRef .tc main_v3) = dst m c := host0_dst (W0 m ρ c)
theorem w1_arg0 : W1 m ρ c (Proc.devRef .tc main_arg0) = arg m c main_arg0 := by keep_host
theorem w1_arg3 : W1 m ρ c (Proc.devRef .tc main_arg3) = arg m c main_arg3 := by keep_host
theorem w1_arg4 : W1 m ρ c (Proc.devRef .tc main_arg4) = arg m c main_arg4 := by keep_host
theorem w1_arg5 : W1 m ρ c (Proc.devRef .tc main_arg5) = arg m c main_arg5 := by keep_host

/-! ## What a region leaves, at entry contents known by name -/

/-- Region 0's output array, once its five input arrays' entry contents are known. -/
theorem r0_at (hr : RegionValues) (V : (c : Dev nD) → (b : Ref sig .tc) → Buf (Elt Ideal) ((c : Thread nD τ).loc b)) (c : Dev nD)
    {A X : Arr2 50000 128} {Wl Wr : Arr2 128 128} {b : Arr1 128}
    (hA : V c main_v21 = A) (hX : V c main_arg0 = X) (hWl : V c main_arg3 = Wl) (hWr : V c main_arg5 = Wr) (hb : V c main_arg4 = b) :
    (dat0 (F := Ideal) V c).arrAt 5 cfg0.N = sage (n := 50000) A X Wl Wr b := by
  subst hA hX hWl hWr hb; exact hr.r0 V c

/-- Region 1's. -/
theorem r1_at (hr : RegionValues) (V : (c : Dev nD) → (b : Ref sig .tc) → Buf (Elt Ideal) ((c : Thread nD τ).loc b)) (c : Dev nD)
    {A X : Arr2 50000 128} {Wl Wr : Arr2 128 128} {b : Arr1 128}
    (hA : V c main_v40 = A) (hX : V c main_v22 = X) (hWl : V c main_arg6 = Wl) (hWr : V c main_arg8 = Wr) (hb : V c main_arg7 = b) :
    (dat1 (F := Ideal) V c).arrAt 5 cfg1.N = sage (n := 50000) A X Wl Wr b := by
  subst hA hX hWl hWr hb; exact hr.r1 V c

/-- Region 2's. -/
theorem r2_at (hr : RegionValues) (V : (c : Dev nD) → (b : Ref sig .tc) → Buf (Elt Ideal) ((c : Thread nD τ).loc b)) (c : Dev nD)
    {A X : Arr2 50000 128} {Wl Wr : Arr2 128 128} {b : Arr1 128}
    (hA : V c main_v59 = A) (hX : V c main_v41 = X) (hWl : V c main_arg9 = Wl) (hWr : V c main_arg11 = Wr) (hb : V c main_arg10 = b) :
    (dat2 (F := Ideal) V c).arrAt 5 cfg2.N = sage (n := 50000) A X Wl Wr b := by
  subst hA hX hWl hWr hb; exact hr.r2 V c

/-- Region 3's. -/
theorem r3_at (hr : RegionValues) (V : (c : Dev nD) → (b : Ref sig .tc) → Buf (Elt Ideal) ((c : Thread nD τ).loc b)) (c : Dev nD)
    {g : Arr2 500 128} {W4 : Arr2 128 64} {b4 : Arr1 64} {W5 : Arr2 64 10} {b5 : Arr1 10}
    (hg : V c main_v71 = g) (hW4 : V c main_arg12 = W4) (hb4 : V c main_arg13 = b4) (hW5 : V c main_arg14 = W5) (hb5 : V c main_arg15 = b5) :
    (dat3 (F := Ideal) V c).arrAt 5 cfg3.N = mlp g W4 b4 W5 b5 := by
  subst hg hW4 hb4 hW5 hb5; exact hr.r3 V c

/-! ## Boundary 2: after region 0 -/

theorem w2_v22 (hr : RegionValues) : W2 m ρ c (Proc.devRef .tc main_v22) = H1 m c :=
  (W2_arr m ρ c 5).trans (r0_at hr (V1 m ρ) c (w1_v21 m ρ c) (w1_arg0 m ρ c) (w1_arg3 m ρ c) (w1_arg5 m ρ c) (w1_arg4 m ρ c))
theorem w2_v1 : W2 m ρ c (Proc.devRef .tc main_v1) = src m c := (W2_of_ne m ρ c main_v1 (by decide)).trans (w1_v1 m ρ c)
theorem w2_v3 : W2 m ρ c (Proc.devRef .tc main_v3) = dst m c := (W2_of_ne m ρ c main_v3 (by decide)).trans (w1_v3 m ρ c)

/-! ## Boundary 3: after the second line -/

theorem w3_v40 (hr : RegionValues) : W3 m ρ c (Proc.devRef .tc main_v40) = A2 m c :=
  (host1_aggr (W2 m ρ c)).trans (by rw [w2_v22 m ρ c hr, w2_v1 m ρ c, w2_v3 m ρ c])
theorem w3_v22 (hr : RegionValues) : W3 m ρ c (Proc.devRef .tc main_v22) = H1 m c :=
  (by keep_host : W3 m ρ c (Proc.devRef .tc main_v22) = W2 m ρ c (Proc.devRef .tc main_v22)).trans (w2_v22 m ρ c hr)
theorem w3_v1 : W3 m ρ c (Proc.devRef .tc main_v1) = src m c :=
  (by keep_host : W3 m ρ c (Proc.devRef .tc main_v1) = W2 m ρ c (Proc.devRef .tc main_v1)).trans (w2_v1 m ρ c)
theorem w3_v3 : W3 m ρ c (Proc.devRef .tc main_v3) = dst m c :=
  (by keep_host : W3 m ρ c (Proc.devRef .tc main_v3) = W2 m ρ c (Proc.devRef .tc main_v3)).trans (w2_v3 m ρ c)
theorem w3_arg6 : W3 m ρ c (Proc.devRef .tc main_arg6) = arg m c main_arg6 :=
  (by keep_host : W3 m ρ c (Proc.devRef .tc main_arg6) = W2 m ρ c (Proc.devRef .tc main_arg6)).trans <|
    (W2_of_ne m ρ c main_arg6 (by decide)).trans <|
    (by keep_host : W1 m ρ c (Proc.devRef .tc main_arg6) = arg m c main_arg6)
theorem w3_arg7 : W3 m ρ c (Proc.devRef .tc main_arg7) = arg m c main_arg7 :=
  (by keep_host : W3 m ρ c (Proc.devRef .tc main_arg7) = W2 m ρ c (Proc.devRef .tc main_arg7)).trans <|
    (W2_of_ne m ρ c main_arg7 (by decide)).trans <|
    (by keep_host : W1 m ρ c (Proc.devRef .tc main_arg7) = arg m c main_arg7)
theorem w3_arg8 : W3 m ρ c (Proc.devRef .tc main_arg8) = arg m c main_arg8 :=
  (by keep_host : W3 m ρ c (Proc.devRef .tc main_arg8) = W2 m ρ c (Proc.devRef .tc main_arg8)).trans <|
    (W2_of_ne m ρ c main_arg8 (by decide)).trans <|
    (by keep_host : W1 m ρ c (Proc.devRef .tc main_arg8) = arg m c main_arg8)

/-! ## Boundary 4: after region 1 -/

theorem w4_v41 (hr : RegionValues) : W4 m ρ c (Proc.devRef .tc main_v41) = H2 m c :=
  (W4_arr m ρ c 5).trans (r1_at hr (V3 m ρ) c (w3_v40 m ρ c hr) (w3_v22 m ρ c hr) (w3_arg6 m ρ c) (w3_arg8 m ρ c) (w3_arg7 m ρ c))
theorem w4_v1 : W4 m ρ c (Proc.devRef .tc main_v1) = src m c := (W4_of_ne m ρ c main_v1 (by decide)).trans (w3_v1 m ρ c)
theorem w4_v3 : W4 m ρ c (Proc.devRef .tc main_v3) = dst m c := (W4_of_ne m ρ c main_v3 (by decide)).trans (w3_v3 m ρ c)

/-! ## Boundary 5: after the third line -/

theorem w5_v59 (hr : RegionValues) : W5 m ρ c (Proc.devRef .tc main_v59) = A3 m c :=
  (host2_aggr (W4 m ρ c)).trans (by rw [w4_v41 m ρ c hr, w4_v1 m ρ c, w4_v3 m ρ c])
theorem w5_v41 (hr : RegionValues) : W5 m ρ c (Proc.devRef .tc main_v41) = H2 m c :=
  (by keep_host : W5 m ρ c (Proc.devRef .tc main_v41) = W4 m ρ c (Proc.devRef .tc main_v41)).trans (w4_v41 m ρ c hr)
theorem w5_arg9 : W5 m ρ c (Proc.devRef .tc main_arg9) = arg m c main_arg9 :=
  (by keep_host : W5 m ρ c (Proc.devRef .tc main_arg9) = W4 m ρ c (Proc.devRef .tc main_arg9)).trans <|
    (W4_of_ne m ρ c main_arg9 (by decide)).trans <|
    (by keep_host : W3 m ρ c (Proc.devRef .tc main_arg9) = W2 m ρ c (Proc.devRef .tc main_arg9)).trans <|
    (W2_of_ne m ρ c main_arg9 (by decide)).trans <|
    (by keep_host : W1 m ρ c (Proc.devRef .tc main_arg9) = arg m c main_arg9)
theorem w5_arg10 : W5 m ρ c (Proc.devRef .tc main_arg10) = arg m c main_arg10 :=
  (by keep_host : W5 m ρ c (Proc.devRef .tc main_arg10) = W4 m ρ c (Proc.devRef .tc main_arg10)).trans <|
    (W4_of_ne m ρ c main_arg10 (by decide)).trans <|
    (by keep_host : W3 m ρ c (Proc.devRef .tc main_arg10) = W2 m ρ c (Proc.devRef .tc main_arg10)).trans <|
    (W2_of_ne m ρ c main_arg10 (by decide)).trans <|
    (by keep_host : W1 m ρ c (Proc.devRef .tc main_arg10) = arg m c main_arg10)
theorem w5_arg11 : W5 m ρ c (Proc.devRef .tc main_arg11) = arg m c main_arg11 :=
  (by keep_host : W5 m ρ c (Proc.devRef .tc main_arg11) = W4 m ρ c (Proc.devRef .tc main_arg11)).trans <|
    (W4_of_ne m ρ c main_arg11 (by decide)).trans <|
    (by keep_host : W3 m ρ c (Proc.devRef .tc main_arg11) = W2 m ρ c (Proc.devRef .tc main_arg11)).trans <|
    (W2_of_ne m ρ c main_arg11 (by decide)).trans <|
    (by keep_host : W1 m ρ c (Proc.devRef .tc main_arg11) = arg m c main_arg11)

/-! ## Boundary 6: after region 2 -/

theorem w6_v60 (hr : RegionValues) : W6 m ρ c (Proc.devRef .tc main_v60) = H3 m c :=
  (W6_arr m ρ c 5).trans (r2_at hr (V5 m ρ) c (w5_v59 m ρ c hr) (w5_v41 m ρ c hr) (w5_arg9 m ρ c) (w5_arg11 m ρ c) (w5_arg10 m ρ c))
theorem w6_arg2 : W6 m ρ c (Proc.devRef .tc main_arg2) = arg m c main_arg2 :=
  (W6_of_ne m ρ c main_arg2 (by decide)).trans <|
    (by keep_host : W5 m ρ c (Proc.devRef .tc main_arg2) = W4 m ρ c (Proc.devRef .tc main_arg2)).trans <|
    (W4_of_ne m ρ c main_arg2 (by decide)).trans <|
    (by keep_host : W3 m ρ c (Proc.devRef .tc main_arg2) = W2 m ρ c (Proc.devRef .tc main_arg2)).trans <|
    (W2_of_ne m ρ c main_arg2 (by decide)).trans <|
    (by keep_host : W1 m ρ c (Proc.devRef .tc main_arg2) = arg m c main_arg2)

/-! ## Boundary 7: after the fourth line -/

theorem w7_v71 (hr : RegionValues) : W7 m ρ c (Proc.devRef .tc main_v71) = G m c :=
  (host3_pool (W6 m ρ c)).trans (by rw [w6_v60 m ρ c hr, w6_arg2 m ρ c])
theorem w7_arg12 : W7 m ρ c (Proc.devRef .tc main_arg12) = arg m c main_arg12 :=
  (by keep_host : W7 m ρ c (Proc.devRef .tc main_arg12) = W6 m ρ c (Proc.devRef .tc main_arg12)).trans <|
    (W6_of_ne m ρ c main_arg12 (by decide)).trans <|
    (by keep_host : W5 m ρ c (Proc.devRef .tc main_arg12) = W4 m ρ c (Proc.devRef .tc main_arg12)).trans <|
    (W4_of_ne m ρ c main_arg12 (by decide)).trans <|
    (by keep_host : W3 m ρ c (Proc.devRef .tc main_arg12) = W2 m ρ c (Proc.devRef .tc main_arg12)).trans <|
    (W2_of_ne m ρ c main_arg12 (by decide)).trans <|
    (by keep_host : W1 m ρ c (Proc.devRef .tc main_arg12) = arg m c main_arg12)
theorem w7_arg13 : W7 m ρ c (Proc.devRef .tc main_arg13) = arg m c main_arg13 :=
  (by keep_host : W7 m ρ c (Proc.devRef .tc main_arg13) = W6 m ρ c (Proc.devRef .tc main_arg13)).trans <|
    (W6_of_ne m ρ c main_arg13 (by decide)).trans <|
    (by keep_host : W5 m ρ c (Proc.devRef .tc main_arg13) = W4 m ρ c (Proc.devRef .tc main_arg13)).trans <|
    (W4_of_ne m ρ c main_arg13 (by decide)).trans <|
    (by keep_host : W3 m ρ c (Proc.devRef .tc main_arg13) = W2 m ρ c (Proc.devRef .tc main_arg13)).trans <|
    (W2_of_ne m ρ c main_arg13 (by decide)).trans <|
    (by keep_host : W1 m ρ c (Proc.devRef .tc main_arg13) = arg m c main_arg13)
theorem w7_arg14 : W7 m ρ c (Proc.devRef .tc main_arg14) = arg m c main_arg14 :=
  (by keep_host : W7 m ρ c (Proc.devRef .tc main_arg14) = W6 m ρ c (Proc.devRef .tc main_arg14)).trans <|
    (W6_of_ne m ρ c main_arg14 (by decide)).trans <|
    (by keep_host : W5 m ρ c (Proc.devRef .tc main_arg14) = W4 m ρ c (Proc.devRef .tc main_arg14)).trans <|
    (W4_of_ne m ρ c main_arg14 (by decide)).trans <|
    (by keep_host : W3 m ρ c (Proc.devRef .tc main_arg14) = W2 m ρ c (Proc.devRef .tc main_arg14)).trans <|
    (W2_of_ne m ρ c main_arg14 (by decide)).trans <|
    (by keep_host : W1 m ρ c (Proc.devRef .tc main_arg14) = arg m c main_arg14)
theorem w7_arg15 : W7 m ρ c (Proc.devRef .tc main_arg15) = arg m c main_arg15 :=
  (by keep_host : W7 m ρ c (Proc.devRef .tc main_arg15) = W6 m ρ c (Proc.devRef .tc main_arg15)).trans <|
    (W6_of_ne m ρ c main_arg15 (by decide)).trans <|
    (by keep_host : W5 m ρ c (Proc.devRef .tc main_arg15) = W4 m ρ c (Proc.devRef .tc main_arg15)).trans <|
    (W4_of_ne m ρ c main_arg15 (by decide)).trans <|
    (by keep_host : W3 m ρ c (Proc.devRef .tc main_arg15) = W2 m ρ c (Proc.devRef .tc main_arg15)).trans <|
    (W2_of_ne m ρ c main_arg15 (by decide)).trans <|
    (by keep_host : W1 m ρ c (Proc.devRef .tc main_arg15) = arg m c main_arg15)

/-! ## Boundary 8: after region 3 — the result -/

/-- The result buffer after the last region is the head of the pooled mean of the third layer's output. -/
theorem w8_v72 (hr : RegionValues) :
    W8 m ρ c (Proc.devRef .tc main_v72) = mlp (G m c) (arg m c main_arg12) (arg m c main_arg13) (arg m c main_arg14) (arg m c main_arg15) :=
  (W8_arr m ρ c 5).trans (r3_at hr (V7 m ρ) c (w7_v71 m ρ c hr) (w7_arg12 m ρ c) (w7_arg13 m ρ c) (w7_arg14 m ρ c) (w7_arg15 m ρ c))

/-- So it is the network function, with the layer's summands in the kernel's order, of the sixteen arguments. -/
theorem result_eq (hr : RegionValues) :
    W8 m ρ c (Proc.devRef .tc main_v72)
      = network (sage (n := 50000)) (arg m c main_arg0) (arg m c main_arg1) (arg m c main_arg2) (arg m c main_arg3) (arg m c main_arg4)
          (arg m c main_arg5) (arg m c main_arg6) (arg m c main_arg7) (arg m c main_arg8) (arg m c main_arg9) (arg m c main_arg10)
          (arg m c main_arg11) (arg m c main_arg12) (arg m c main_arg13) (arg m c main_arg14) (arg m c main_arg15) :=
  (w8_v72 m ρ c hr).trans rfl

end Cert.KernelIdeal.ResultValue

end
-- ==== Proof.SageBlock.lean ====
import proofs.«179098_j48155173323149_1_alg».proof.Proof.Spec
import proofs.«179098_j48155173323149_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# One block of a graph-convolution layer, entry by entry

A layer's kernel body takes 2000 rows of the neighbourhood mean and of the features, the two 128×128 weight
matrices and the bias, and returns the 2000 rows of the layer: both products into a zero accumulator, their
sum, the bias added along the rows, the floor at zero. Read at row `p`, column `q` on the extended reals
this is `max ((⟨a_p, Wl_q⟩ + ⟨x_p, Wr_q⟩) + b_q) 0`: a change of float format is the identity there, a
product into the zero accumulator is the sum over the one contracted axis, and the bias row is read at its
column whatever the row.
-/

noncomputable section

open Idealize.ShloMosaic Idealize.ShloMosaic.ValueIdx

namespace Cert.KernelIdeal.SageBlock

open Cert.KernelIdeal Cert.KernelIdeal.Gen Cert.GraphSage

/-- The offsets of a whole-block access are all zero. -/
theorem zero2 : (![0, 0] : Fin 2 → Nat) = fun _ => 0 := funext fun a => by fin_cases a <;> rfl
theorem zero1 : (![0] : Fin 1 → Nat) = fun _ => 0 := funext fun a => by fin_cases a <;> rfl

/-- The product's left operand is read at the output's row and the contracted coordinate, -/
theorem lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
/-- and its right operand at the contracted coordinate and the output's column. -/
theorem rhs_row (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
theorem rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 block against a 128×128 matrix into the zero accumulator, at row `p`, column `q`: the sum over
    the contracted axis `k` of the block's entry `(p, k)` times the matrix's entry `(k, q)`. -/
theorem matmul_ix2 (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias as one row broadcast down the 2000 rows reads, at `(p, q)`, the bias at `q`. -/
theorem bias_ix2 (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The body of layer 1's kernel at row `p`, column `q` of its block: the aggregate's row against `wl`, plus the
    features' row against `wr`, plus the bias at `q`, floored at the zero word. -/
theorem pay0_apply (a x : Vec Ideal S2000x128 .f32) (wl wr : Vec Ideal S128x128 .f32) (b : Vec Ideal S128 .f32)
    (p : Fin 2000) (q : Fin 128) :
    k0_pay1 (F := Ideal) a x wl wr b (ix2 p q)
      = max (((∑ k : Fin 128, a (ix2 p k) * wl (ix2 k q)) + (∑ k : Fin 128, x (ix2 p k) * wr (ix2 k q))) + b (ix1 q))
          (Ideal.ofBits .f32 0x00000000#32) := by
  unfold k0_pay1
  simp only [shapeCast_self]
  rw [maximumf_apply, addf_apply, addf_apply, broadcast_apply, matmul_ix2, matmul_ix2, bias_ix2]
  simp only [truncf_apply]
  rfl

/-- The same body on a block whose rows are rows `2000·T …` of the aggregate `A` and of the features `X` (`ha`,
    `hx`: the block's entry `y` is the array's entry `i` whenever `i` is `y` moved down by `2000·T` rows), with the
    weights and the bias whole: its entry `y` is the layer's entry at the array index `i` that `y` names. -/
theorem pay0_block (A X : Arr2 50000 128) (Wl Wr : Arr2 128 128) (b : Arr1 128)
    (a x : Vec Ideal S2000x128 .f32) (T : Nat)
    (ha : ∀ (y : S2000x128.Idx) (i : S50000x128.Idx), (i 0).val = 2000 * T + (y 0).val → (i 1).val = (y 1).val → a y = A i)
    (hx : ∀ (y : S2000x128.Idx) (i : S50000x128.Idx), (i 0).val = 2000 * T + (y 0).val → (i 1).val = (y 1).val → x y = X i)
    (y : S2000x128.Idx) (i : S50000x128.Idx) (h0 : (i 0).val = 2000 * T + (y 0).val) (h1 : (i 1).val = (y 1).val) :
    k0_pay1 (F := Ideal) a x Wl Wr b y = sage A X Wl Wr b i := by
  obtain ⟨p, q, rfl⟩ : ∃ (p : Fin 2000) (q : Fin 128), y = ix2 p q := ⟨y 0, y 1, eq_ix2 y⟩
  obtain ⟨r, j, rfl⟩ : ∃ (r : Fin 50000) (j : Fin 128), i = ix2 r j := ⟨i 0, i 1, eq_ix2 i⟩
  obtain rfl : j = q := Fin.ext h1
  have ea : ∀ k : Fin 128, a (ix2 p k) = A (ix2 r k) := fun k => ha _ _ h0 rfl
  have ex : ∀ k : Fin 128, x (ix2 p k) = X (ix2 r k) := fun k => hx _ _ h0 rfl
  rw [pay0_apply, sage_ix2]
  unfold sageAt
  simp only [ea, ex]

/-- The body of layer 2's kernel at row `p`, column `q` of its block: the aggregate's row against `wl`, plus the
    features' row against `wr`, plus the bias at `q`, floored at the zero word. -/
theorem pay1_apply (a x : Vec Ideal S2000x128 .f32) (wl wr : Vec Ideal S128x128 .f32) (b : Vec Ideal S128 .f32)
    (p : Fin 2000) (q : Fin 128) :
    k1_pay1 (F := Ideal) a x wl wr b (ix2 p q)
      = max (((∑ k : Fin 128, a (ix2 p k) * wl (ix2 k q)) + (∑ k : Fin 128, x (ix2 p k) * wr (ix2 k q))) + b (ix1 q))
          (Ideal.ofBits .f32 0x00000000#32) := by
  unfold k1_pay1
  simp only [shapeCast_self]
  rw [maximumf_apply, addf_apply, addf_apply, broadcast_apply, matmul_ix2, matmul_ix2, bias_ix2]
  simp only [truncf_apply]
  rfl

/-- The same body on a block whose rows are rows `2000·T …` of the aggregate `A` and of the features `X` (`ha`,
    `hx`: the block's entry `y` is the array's entry `i` whenever `i` is `y` moved down by `2000·T` rows), with the
    weights and the bias whole: its entry `y` is the layer's entry at the array index `i` that `y` names. -/
theorem pay1_block (A X : Arr2 50000 128) (Wl Wr : Arr2 128 128) (b : Arr1 128)
    (a x : Vec Ideal S2000x128 .f32) (T : Nat)
    (ha : ∀ (y : S2000x128.Idx) (i : S50000x128.Idx), (i 0).val = 2000 * T + (y 0).val → (i 1).val = (y 1).val → a y = A i)
    (hx : ∀ (y : S2000x128.Idx) (i : S50000x128.Idx), (i 0).val = 2000 * T + (y 0).val → (i 1).val = (y 1).val → x y = X i)
    (y : S2000x128.Idx) (i : S50000x128.Idx) (h0 : (i 0).val = 2000 * T + (y 0).val) (h1 : (i 1).val = (y 1).val) :
    k1_pay1 (F := Ideal) a x Wl Wr b y = sage A X Wl Wr b i := by
  obtain ⟨p, q, rfl⟩ : ∃ (p : Fin 2000) (q : Fin 128), y = ix2 p q := ⟨y 0, y 1, eq_ix2 y⟩
  obtain ⟨r, j, rfl⟩ : ∃ (r : Fin 50000) (j : Fin 128), i = ix2 r j := ⟨i 0, i 1, eq_ix2 i⟩
  obtain rfl : j = q := Fin.ext h1
  have ea : ∀ k : Fin 128, a (ix2 p k) = A (ix2 r k) := fun k => ha _ _ h0 rfl
  have ex : ∀ k : Fin 128, x (ix2 p k) = X (ix2 r k) := fun k => hx _ _ h0 rfl
  rw [pay1_apply, sage_ix2]
  unfold sageAt
  simp only [ea, ex]

/-- The body of layer 3's kernel at row `p`, column `q` of its block: the aggregate's row against `wl`, plus the
    features' row against `wr`, plus the bias at `q`, floored at the zero word. -/
theorem pay2_apply (a x : Vec Ideal S2000x128 .f32) (wl wr : Vec Ideal S128x128 .f32) (b : Vec Ideal S128 .f32)
    (p : Fin 2000) (q : Fin 128) :
    k2_pay1 (F := Ideal) a x wl wr b (ix2 p q)
      = max (((∑ k : Fin 128, a (ix2 p k) * wl (ix2 k q)) + (∑ k : Fin 128, x (ix2 p k) * wr (ix2 k q))) + b (ix1 q))
          (Ideal.ofBits .f32 0x00000000#32) := by
  unfold k2_pay1
  simp only [shapeCast_self]
  rw [maximumf_apply, addf_apply, addf_apply, broadcast_apply, matmul_ix2, matmul_ix2, bias_ix2]
  simp only [truncf_apply]
  rfl

/-- The same body on a block whose rows are rows `2000·T …` of the aggregate `A` and of the features `X` (`ha`,
    `hx`: the block's entry `y` is the array's entry `i` whenever `i` is `y` moved down by `2000·T` rows), with the
    weights and the bias whole: its entry `y` is the layer's entry at the array index `i` that `y` names. -/
theorem pay2_block (A X : Arr2 50000 128) (Wl Wr : Arr2 128 128) (b : Arr1 128)
    (a x : Vec Ideal S2000x128 .f32) (T : Nat)
    (ha : ∀ (y : S2000x128.Idx) (i : S50000x128.Idx), (i 0).val = 2000 * T + (y 0).val → (i 1).val = (y 1).val → a y = A i)
    (hx : ∀ (y : S2000x128.Idx) (i : S50000x128.Idx), (i 0).val = 2000 * T + (y 0).val → (i 1).val = (y 1).val → x y = X i)
    (y : S2000x128.Idx) (i : S50000x128.Idx) (h0 : (i 0).val = 2000 * T + (y 0).val) (h1 : (i 1).val = (y 1).val) :
    k2_pay1 (F := Ideal) a x Wl Wr b y = sage A X Wl Wr b i := by
  obtain ⟨p, q, rfl⟩ : ∃ (p : Fin 2000) (q : Fin 128), y = ix2 p q := ⟨y 0, y 1, eq_ix2 y⟩
  obtain ⟨r, j, rfl⟩ : ∃ (r : Fin 50000) (j : Fin 128), i = ix2 r j := ⟨i 0, i 1, eq_ix2 i⟩
  obtain rfl : j = q := Fin.ext h1
  have ea : ∀ k : Fin 128, a (ix2 p k) = A (ix2 r k) := fun k => ha _ _ h0 rfl
  have ex : ∀ k : Fin 128, x (ix2 p k) = X (ix2 r k) := fun k => hx _ _ h0 rfl
  rw [pay2_apply, sage_ix2]
  unfold sageAt
  simp only [ea, ex]

end Cert.KernelIdeal.SageBlock

end
-- ==== Proof.SageRegion0.lean ====
import proofs.«179098_j48155173323149_1_alg».proof.Proof.Network
import proofs.«179098_j48155173323149_1_alg».proof.Proof.SageBlock
import proofs.«179098_j48155173323149_1_alg».proof.Proof.Gen.KernelIdeal.Frame

/-!
# Layer 1's kernel region leaves the layer in its output array

The region runs the layer's body at 25 grid points. Point `t` stages rows `2000·t … 2000·t + 1999` of the
neighbourhood mean and of the features, the two weight matrices and the bias whole, and writes rows
`2000·t …` of the output. So what point `t` writes back is block `t` of `sage` of the five arrays as the
region finds them; row `r` of the output lies in the block of point `r / 2000`; and the blocks fill the
array, which therefore ends holding `sage` of those arrays.
-/

noncomputable section

open Idealize.ShloMosaic Idealize.ShloMosaic.TcCoe Idealize.SL.Sem Idealize.ShloMosaic.ValueIdx

namespace Cert.KernelIdeal.RegionValue

open Cert.KernelIdeal Cert.KernelIdeal.Gen Cert.GraphSage Cert.KernelIdeal.SageBlock

variable (V : (c : Dev nD) → (b : Ref sig .tc) → Buf (Elt Ideal) ((c : Thread nD τ).loc b))

/-- The index maps over the grid: the aggregate's, the features' and the output's blocks are block `t` along the
    rows and block 0 along the columns; the weights' and the bias's blocks are block 0 on every axis. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregate's block at point `t` is rows `2000·t …` of its array. -/
theorem rows0_0 (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_v21 : S50000x128.Idx → Elt Ideal .f32) i := by
  obtain ⟨e0, e1, -⟩ := index0 t
  unfold iblk0
  rw [View.read_apply]
  show V c main_v21 (((cfg0.win 0).blk t).view.emb y) = V c main_v21 i
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The features' block at point `t` is rows `2000·t …` of their array. -/
theorem rows0_1 (c : Dev nD) (t : Fin cfg0.N) (y : S2000x128.Idx) (i : S50000x128.Idx)
    (h0 : (i 0).val = 2000 * t.val + (y 0).val) (h1 : (i 1).val = (y 1).val) :
    (iblk0 V c 1 t : Vec Ideal S2000x128 .f32) y = (V c main_arg0 : S50000x128.Idx → Elt Ideal .f32) i := by
  obtain ⟨-, -, e0, e1, -⟩ := index0 t
  unfold iblk0
  rw [View.read_apply]
  show V c main_arg0 (((cfg0.win 1).blk t).view.emb y) = V c main_arg0 i
  refine congrArg _ (funext fun a => Fin.ext ?_)
  match a with
  | ⟨0, _⟩ => show win0_1.index t (0 : Fin 2) * 2000 + 1 * (y 0).val = (i 0).val; rw [e0, h0]; omega
  | ⟨1, _⟩ => show win0_1.index t (1 : Fin 2) * 128 + 1 * (y 1).val = (i 1).val; rw [e1, h1]; omega

/-- The aggregate's weights are staged whole at every point, -/
theorem whole0_2 (c : Dev nD) (t : Fin cfg0.N) :
    (iblk0 V c 2 t : Vec Ideal S128x128 .f32) = (V c main_arg3 : S128x128.Idx → Elt Ideal .f32) := by
  obtain ⟨-, -, -, -, e0, e1, -⟩ := index0 t
  funext y
  unfold iblk0
  rw [View.read_apply]
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- so is the bias, -/
theorem whole0_3 (c : Dev nD) (t : Fin cfg0.N) :
    (iblk0 V c 3 t : Vec Ideal S128 .f32) = (V c main_arg4 : S128.Idx → Elt Ideal .f32) := by
  obtain ⟨-, -, -, -, -, -, e0, -⟩ := index0 t
  funext y
  unfold iblk0
  rw [View.read_apply]
  show V c main_arg4 (((cfg0.win 3).blk t).view.emb y) = V c main_arg4 y
  refine congrArg _ (funext fun a => Fin.ext ?_)
  match a with
  | ⟨0, _⟩ => show win0_3.index t (0 : Fin 1) * 128 + 1 * (y 0).val = (y 0).val; rw [e0]; omega

/-- and so are the features' weights. -/
theorem whole0_4 (c : Dev nD) (t : Fin cfg0.N) :
    (iblk0 V c 4 t : Vec Ideal S128x128 .f32) = (V c main_arg5 : S128x128.Idx → Elt Ideal .f32) := by
  obtain ⟨-, -, -, -, -, -, -, e0, e1, -⟩ := index0 t
  funext y
  unfold iblk0
  rw [View.read_apply]
  show V c main_arg5 (((cfg0.win 4).blk t).view.emb y) = V c main_arg5 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- What point `t` writes back is block `t` of the layer of the five arrays as the region finds them. -/
theorem flushed0_eq (c : Dev nD) (t : Fin cfg0.N) :
    (dat0 (F := Ideal) V c).flushed 5 t
      = ((cfg0.win 5).blk t).view.read (Elt Ideal)
          (sage (n := 50000) (V c main_v21) (V c main_arg0) (V c main_arg3) (V c main_arg5) (V c main_arg4)) := by
  show (cfg0.win 5).cut (grid0.coords t) ((dat0 (F := Ideal) V c).after 5 t) = _
  rw [after0_5]
  unfold out0_5
  rw [View.canon_unit_zero zero2]
  simp only [View.ld_unit_zero (S := S2000x128) zero2, View.ld_unit_zero (S := S128x128) zero2,
    View.ld_unit_zero (S := S128) zero1]
  rw [whole0_2, whole0_3, whole0_4]
  obtain ⟨-, -, -, -, -, -, -, -, -, e0, e1⟩ := index0 t
  funext j
  show k0_pay1 (F := Ideal) (iblk0 V c 0 t) (iblk0 V c 1 t) (V c main_arg3) (V c main_arg5) (V c main_arg4) j
    = sage (n := 50000) (V c main_v21) (V c main_arg0) (V c main_arg3) (V c main_arg5) (V c main_arg4) (((cfg0.win 5).blk t).view.emb j)
  refine pay0_block (V c main_v21) (V c main_arg0) (V c main_arg3) (V c main_arg5) (V c main_arg4) (iblk0 V c 0 t) (iblk0 V c 1 t) t.val
    (fun y i h0 h1 => rows0_0 V c t y i h0 h1) (fun y i h0 h1 => rows0_1 V c t y i h0 h1) j
    (((cfg0.win 5).blk t).view.emb j) ?_ ?_
  · show win0_5.index t (0 : Fin 2) * 2000 + 1 * (j 0).val = 2000 * t.val + (j 0).val
    rw [e0]; omega
  · show win0_5.index t (1 : Fin 2) * 128 + 1 * (j 1).val = (j 1).val
    rw [e1]; omega

/-- An index of the output array is in point `t`'s block iff each coordinate is in the block's range on its axis. -/
theorem mem_blk0 (t : Fin cfg0.N) (i : S50000x128.Idx) :
    i ∈ ((cfg0.win 5).blk t).view.set
      ↔ ∀ a : Fin 2, win0_5.index t a * S2000x128.size a ≤ (i a).val
          ∧ (i a).val < win0_5.index t a * S2000x128.size a + S2000x128.size a := by
  show i ∈ ((View.whole main_v22).slice (win0_5.rect t)).set ↔ _
  rw [View.set_slice_whole, Rect.mem_set_unit]
  exact Iff.rfl

/-- Row `r` of the output is in the block of point `r / 2000`, which writes its block back. -/
theorem cover0 (i : S50000x128.Idx) :
    ∃ t : Fin cfg0.N, (cfg0.win 5).flush t = true ∧ i ∈ ((cfg0.win 5).blk t).view.set := by
  have h0 : (i 0).val < 50000 := (i 0).isLt
  have h1 : (i 1).val < 128 := (i 1).isLt
  have hN : grid0.N = 25 := N_0
  have ht : (i 0).val / 2000 < cfg0.N := by show _ < grid0.N; rw [hN]; omega
  obtain ⟨-, -, -, -, -, -, -, -, -, e0, e1⟩ := index0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]; omega

/-- After the region's 25 points the output array holds the layer of the five arrays as the region found them. -/
theorem region0_value (c : Dev nD) :
    (dat0 (F := Ideal) V c).arrAt 5 cfg0.N
      = sage (n := 50000) (V c main_v21) (V c main_arg0) (V c main_arg3) (V c main_arg5) (V c main_arg4) :=
  (dat0 (F := Ideal) V c).arrAt_eq_of_cover 5
    (sage (n := 50000) (V c main_v21) (V c main_arg0) (V c main_arg3) (V c main_arg5) (V c main_arg4))
    (fun t _ => flushed0_eq V c t) cover0

end Cert.KernelIdeal.RegionValue

end
-- ==== Proof.SageRegion1.lean ====
import proofs.«179098_j48155173323149_1_alg».proof.Proof.Network
import proofs.«179098_j48155173323149_1_alg».proof.Proof.SageBlock
import proofs.«179098_j48155173323149_1_alg».proof.Proof.Gen.KernelIdeal.Frame

/-!
# Layer 2's kernel region leaves the layer in its output array

The region runs the layer's body at 25 grid points. Point `t` stages rows `2000·t … 2000·t + 1999` of the
neighbourhood mean and of the features, the two weight matrices and the bias whole, and writes rows
`2000·t …` of the output. So what point `t` writes back is block `t` of `sage` of the five arrays as the
region finds them; row `r` of the output lies in the block of point `r / 2000`; and the blocks fill the
array, which therefore ends holding `sage` of those arrays.
-/

noncomputable section

open Idealize.ShloMosaic Idealize.ShloMosaic.TcCoe Idealize.SL.Sem Idealize.ShloMosaic.ValueIdx

namespace Cert.KernelIdeal.RegionValue

open Cert.KernelIdeal Cert.KernelIdeal.Gen Cert.GraphSage Cert.KernelIdeal.SageBlock

variable (V : (c : Dev nD) → (b : Ref sig .tc) → Buf (Elt Ideal) ((c : Thread nD τ).loc b))

/-- The index maps over the grid: the aggregate's, the features' and the output's blocks are block `t` along the
    rows and block 0 along the columns; the weights' and the bias's blocks are block 0 on every axis. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point `t` is rows `2000·t …` of its array. -/
theorem rows1_0 (c : Dev nD) (t : Fin cfg1.N) (y : S2000x128.Idx) (i : S50000x128.Idx)
    (h0 : (i 0).val = 2000 * t.val + (y 0).val) (h1 : (i 1).val = (y 1).val) :
    (iblk1 V c 0 t : Vec Ideal S2000x128 .f32) y = (V c main_v40 : S50000x128.Idx → Elt Ideal .f32) i := by
  obtain ⟨e0, e1, -⟩ := index1 t
  unfold iblk1
  rw [View.read_apply]
  show V c main_v40 (((cfg1.win 0).blk t).view.emb y) = V c main_v40 i
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The features' block at point `t` is rows `2000·t …` of their array. -/
theorem rows1_1 (c : Dev nD) (t : Fin cfg1.N) (y : S2000x128.Idx) (i : S50000x128.Idx)
    (h0 : (i 0).val = 2000 * t.val + (y 0).val) (h1 : (i 1).val = (y 1).val) :
    (iblk1 V c 1 t : Vec Ideal S2000x128 .f32) y = (V c main_v22 : S50000x128.Idx → Elt Ideal .f32) i := by
  obtain ⟨-, -, e0, e1, -⟩ := index1 t
  unfold iblk1
  rw [View.read_apply]
  show V c main_v22 (((cfg1.win 1).blk t).view.emb y) = V c main_v22 i
  refine congrArg _ (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 128 + 1 * (y 1).val = (i 1).val; rw [e1, h1]; omega

/-- The aggregate's weights are staged whole at every point, -/
theorem whole1_2 (c : Dev nD) (t : Fin cfg1.N) :
    (iblk1 V c 2 t : Vec Ideal S128x128 .f32) = (V c main_arg6 : S128x128.Idx → Elt Ideal .f32) := by
  obtain ⟨-, -, -, -, e0, e1, -⟩ := index1 t
  funext y
  unfold iblk1
  rw [View.read_apply]
  show V c main_arg6 (((cfg1.win 2).blk t).view.emb y) = V c main_arg6 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- so is the bias, -/
theorem whole1_3 (c : Dev nD) (t : Fin cfg1.N) :
    (iblk1 V c 3 t : Vec Ideal S128 .f32) = (V c main_arg7 : S128.Idx → Elt Ideal .f32) := by
  obtain ⟨-, -, -, -, -, -, e0, -⟩ := index1 t
  funext y
  unfold iblk1
  rw [View.read_apply]
  show V c main_arg7 (((cfg1.win 3).blk t).view.emb y) = V c main_arg7 y
  refine congrArg _ (funext fun a => Fin.ext ?_)
  match a with
  | ⟨0, _⟩ => show win1_3.index t (0 : Fin 1) * 128 + 1 * (y 0).val = (y 0).val; rw [e0]; omega

/-- and so are the features' weights. -/
theorem whole1_4 (c : Dev nD) (t : Fin cfg1.N) :
    (iblk1 V c 4 t : Vec Ideal S128x128 .f32) = (V c main_arg8 : S128x128.Idx → Elt Ideal .f32) := by
  obtain ⟨-, -, -, -, -, -, -, e0, e1, -⟩ := index1 t
  funext y
  unfold iblk1
  rw [View.read_apply]
  show V c main_arg8 (((cfg1.win 4).blk t).view.emb y) = V c main_arg8 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- What point `t` writes back is block `t` of the layer of the five arrays as the region finds them. -/
theorem flushed1_eq (c : Dev nD) (t : Fin cfg1.N) :
    (dat1 (F := Ideal) V c).flushed 5 t
      = ((cfg1.win 5).blk t).view.read (Elt Ideal)
          (sage (n := 50000) (V c main_v40) (V c main_v22) (V c main_arg6) (V c main_arg8) (V c main_arg7)) := by
  show (cfg1.win 5).cut (grid1.coords t) ((dat1 (F := Ideal) V c).after 5 t) = _
  rw [after1_5]
  unfold out1_5
  rw [View.canon_unit_zero zero2]
  simp only [View.ld_unit_zero (S := S2000x128) zero2, View.ld_unit_zero (S := S128x128) zero2,
    View.ld_unit_zero (S := S128) zero1]
  rw [whole1_2, whole1_3, whole1_4]
  obtain ⟨-, -, -, -, -, -, -, -, -, e0, e1⟩ := index1 t
  funext j
  show k1_pay1 (F := Ideal) (iblk1 V c 0 t) (iblk1 V c 1 t) (V c main_arg6) (V c main_arg8) (V c main_arg7) j
    = sage (n := 50000) (V c main_v40) (V c main_v22) (V c main_arg6) (V c main_arg8) (V c main_arg7) (((cfg1.win 5).blk t).view.emb j)
  refine pay1_block (V c main_v40) (V c main_v22) (V c main_arg6) (V c main_arg8) (V c main_arg7) (iblk1 V c 0 t) (iblk1 V c 1 t) t.val
    (fun y i h0 h1 => rows1_0 V c t y i h0 h1) (fun y i h0 h1 => rows1_1 V c t y i h0 h1) j
    (((cfg1.win 5).blk t).view.emb j) ?_ ?_
  · show win1_5.index t (0 : Fin 2) * 2000 + 1 * (j 0).val = 2000 * t.val + (j 0).val
    rw [e0]; omega
  · show win1_5.index t (1 : Fin 2) * 128 + 1 * (j 1).val = (j 1).val
    rw [e1]; omega

/-- An index of the output array is in point `t`'s block iff each coordinate is in the block's range on its axis. -/
theorem mem_blk1 (t : Fin cfg1.N) (i : S50000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v41).slice (win1_5.rect t)).set ↔ _
  rw [View.set_slice_whole, Rect.mem_set_unit]
  exact Iff.rfl

/-- Row `r` of the output is in the block of point `r / 2000`, which writes its block back. -/
theorem cover1 (i : S50000x128.Idx) :
    ∃ t : Fin cfg1.N, (cfg1.win 5).flush t = true ∧ i ∈ ((cfg1.win 5).blk t).view.set := by
  have h0 : (i 0).val < 50000 := (i 0).isLt
  have h1 : (i 1).val < 128 := (i 1).isLt
  have hN : grid1.N = 25 := N_1
  have ht : (i 0).val / 2000 < cfg1.N := by show _ < grid1.N; rw [hN]; omega
  obtain ⟨-, -, -, -, -, -, -, -, -, e0, e1⟩ := index1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-- After the region's 25 points the output array holds the layer of the five arrays as the region found them. -/
theorem region1_value (c : Dev nD) :
    (dat1 (F := Ideal) V c).arrAt 5 cfg1.N
      = sage (n := 50000) (V c main_v40) (V c main_v22) (V c main_arg6) (V c main_arg8) (V c main_arg7) :=
  (dat1 (F := Ideal) V c).arrAt_eq_of_cover 5
    (sage (n := 50000) (V c main_v40) (V c main_v22) (V c main_arg6) (V c main_arg8) (V c main_arg7))
    (fun t _ => flushed1_eq V c t) cover1

end Cert.KernelIdeal.RegionValue

end
-- ==== Proof.SageRegion2.lean ====
import proofs.«179098_j48155173323149_1_alg».proof.Proof.Network
import proofs.«179098_j48155173323149_1_alg».proof.Proof.SageBlock
import proofs.«179098_j48155173323149_1_alg».proof.Proof.Gen.KernelIdeal.Frame

/-!
# Layer 3's kernel region leaves the layer in its output array

The region runs the layer's body at 25 grid points. Point `t` stages rows `2000·t … 2000·t + 1999` of the
neighbourhood mean and of the features, the two weight matrices and the bias whole, and writes rows
`2000·t …` of the output. So what point `t` writes back is block `t` of `sage` of the five arrays as the
region finds them; row `r` of the output lies in the block of point `r / 2000`; and the blocks fill the
array, which therefore ends holding `sage` of those arrays.
-/

noncomputable section

open Idealize.ShloMosaic Idealize.ShloMosaic.TcCoe Idealize.SL.Sem Idealize.ShloMosaic.ValueIdx

namespace Cert.KernelIdeal.RegionValue

open Cert.KernelIdeal Cert.KernelIdeal.Gen Cert.GraphSage Cert.KernelIdeal.SageBlock

variable (V : (c : Dev nD) → (b : Ref sig .tc) → Buf (Elt Ideal) ((c : Thread nD τ).loc b))

/-- The index maps over the grid: the aggregate's, the features' and the output's blocks are block `t` along the
    rows and block 0 along the columns; the weights' and the bias's blocks are block 0 on every axis. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregate's block at point `t` is rows `2000·t …` of its array. -/
theorem rows2_0 (c : Dev nD) (t : Fin cfg2.N) (y : S2000x128.Idx) (i : S50000x128.Idx)
    (h0 : (i 0).val = 2000 * t.val + (y 0).val) (h1 : (i 1).val = (y 1).val) :
    (iblk2 V c 0 t : Vec Ideal S2000x128 .f32) y = (V c main_v59 : S50000x128.Idx → Elt Ideal .f32) i := by
  obtain ⟨e0, e1, -⟩ := index2 t
  unfold iblk2
  rw [View.read_apply]
  show V c main_v59 (((cfg2.win 0).blk t).view.emb y) = V c main_v59 i
  refine congrArg _ (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The features' block at point `t` is rows `2000·t …` of their array. -/
theorem rows2_1 (c : Dev nD) (t : Fin cfg2.N) (y : S2000x128.Idx) (i : S50000x128.Idx)
    (h0 : (i 0).val = 2000 * t.val + (y 0).val) (h1 : (i 1).val = (y 1).val) :
    (iblk2 V c 1 t : Vec Ideal S2000x128 .f32) y = (V c main_v41 : S50000x128.Idx → Elt Ideal .f32) i := by
  obtain ⟨-, -, e0, e1, -⟩ := index2 t
  unfold iblk2
  rw [View.read_apply]
  show V c main_v41 (((cfg2.win 1).blk t).view.emb y) = V c main_v41 i
  refine congrArg _ (funext fun a => Fin.ext ?_)
  match a with
  | ⟨0, _⟩ => show win2_1.index t (0 : Fin 2) * 2000 + 1 * (y 0).val = (i 0).val; rw [e0, h0]; omega
  | ⟨1, _⟩ => show win2_1.index t (1 : Fin 2) * 128 + 1 * (y 1).val = (i 1).val; rw [e1, h1]; omega

/-- The aggregate's weights are staged whole at every point, -/
theorem whole2_2 (c : Dev nD) (t : Fin cfg2.N) :
    (iblk2 V c 2 t : Vec Ideal S128x128 .f32) = (V c main_arg9 : S128x128.Idx → Elt Ideal .f32) := by
  obtain ⟨-, -, -, -, e0, e1, -⟩ := index2 t
  funext y
  unfold iblk2
  rw [View.read_apply]
  show V c main_arg9 (((cfg2.win 2).blk t).view.emb y) = V c main_arg9 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- so is the bias, -/
theorem whole2_3 (c : Dev nD) (t : Fin cfg2.N) :
    (iblk2 V c 3 t : Vec Ideal S128 .f32) = (V c main_arg10 : S128.Idx → Elt Ideal .f32) := by
  obtain ⟨-, -, -, -, -, -, e0, -⟩ := index2 t
  funext y
  unfold iblk2
  rw [View.read_apply]
  show V c main_arg10 (((cfg2.win 3).blk t).view.emb y) = V c main_arg10 y
  refine congrArg _ (funext fun a => Fin.ext ?_)
  match a with
  | ⟨0, _⟩ => show win2_3.index t (0 : Fin 1) * 128 + 1 * (y 0).val = (y 0).val; rw [e0]; omega

/-- and so are the features' weights. -/
theorem whole2_4 (c : Dev nD) (t : Fin cfg2.N) :
    (iblk2 V c 4 t : Vec Ideal S128x128 .f32) = (V c main_arg11 : S128x128.Idx → Elt Ideal .f32) := by
  obtain ⟨-, -, -, -, -, -, -, e0, e1, -⟩ := index2 t
  funext y
  unfold iblk2
  rw [View.read_apply]
  show V c main_arg11 (((cfg2.win 4).blk t).view.emb y) = V c main_arg11 y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- What point `t` writes back is block `t` of the layer of the five arrays as the region finds them. -/
theorem flushed2_eq (c : Dev nD) (t : Fin cfg2.N) :
    (dat2 (F := Ideal) V c).flushed 5 t
      = ((cfg2.win 5).blk t).view.read (Elt Ideal)
          (sage (n := 50000) (V c main_v59) (V c main_v41) (V c main_arg9) (V c main_arg11) (V c main_arg10)) := by
  show (cfg2.win 5).cut (grid2.coords t) ((dat2 (F := Ideal) V c).after 5 t) = _
  rw [after2_5]
  unfold out2_5
  rw [View.canon_unit_zero zero2]
  simp only [View.ld_unit_zero (S := S2000x128) zero2, View.ld_unit_zero (S := S128x128) zero2,
    View.ld_unit_zero (S := S128) zero1]
  rw [whole2_2, whole2_3, whole2_4]
  obtain ⟨-, -, -, -, -, -, -, -, -, e0, e1⟩ := index2 t
  funext j
  show k2_pay1 (F := Ideal) (iblk2 V c 0 t) (iblk2 V c 1 t) (V c main_arg9) (V c main_arg11) (V c main_arg10) j
    = sage (n := 50000) (V c main_v59) (V c main_v41) (V c main_arg9) (V c main_arg11) (V c main_arg10) (((cfg2.win 5).blk t).view.emb j)
  refine pay2_block (V c main_v59) (V c main_v41) (V c main_arg9) (V c main_arg11) (V c main_arg10) (iblk2 V c 0 t) (iblk2 V c 1 t) t.val
    (fun y i h0 h1 => rows2_0 V c t y i h0 h1) (fun y i h0 h1 => rows2_1 V c t y i h0 h1) j
    (((cfg2.win 5).blk t).view.emb j) ?_ ?_
  · show win2_5.index t (0 : Fin 2) * 2000 + 1 * (j 0).val = 2000 * t.val + (j 0).val
    rw [e0]; omega
  · show win2_5.index t (1 : Fin 2) * 128 + 1 * (j 1).val = (j 1).val
    rw [e1]; omega

/-- An index of the output array is in point `t`'s block iff each coordinate is in the block's range on its axis. -/
theorem mem_blk2 (t : Fin cfg2.N) (i : S50000x128.Idx) :
    i ∈ ((cfg2.win 5).blk t).view.set
      ↔ ∀ a : Fin 2, win2_5.index t a * S2000x128.size a ≤ (i a).val
          ∧ (i a).val < win2_5.index t a * S2000x128.size a + S2000x128.size a := by
  show i ∈ ((View.whole main_v60).slice (win2_5.rect t)).set ↔ _
  rw [View.set_slice_whole, Rect.mem_set_unit]
  exact Iff.rfl

/-- Row `r` of the output is in the block of point `r / 2000`, which writes its block back. -/
theorem cover2 (i : S50000x128.Idx) :
    ∃ t : Fin cfg2.N, (cfg2.win 5).flush t = true ∧ i ∈ ((cfg2.win 5).blk t).view.set := by
  have h0 : (i 0).val < 50000 := (i 0).isLt
  have h1 : (i 1).val < 128 := (i 1).isLt
  have hN : grid2.N = 25 := N_2
  have ht : (i 0).val / 2000 < cfg2.N := by show _ < grid2.N; rw [hN]; omega
  obtain ⟨-, -, -, -, -, -, -, -, -, e0, e1⟩ := index2 ⟨(i 0).val / 2000, ht⟩
  refine ⟨⟨(i 0).val / 2000, ht⟩, flush2_5 _, ?_⟩
  rw [mem_blk2]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val
      ∧ (i 1).val < win2_5.index ⟨(i 0).val / 2000, ht⟩ (1 : Fin 2) * 128 + 128
    rw [e1]; omega

/-- After the region's 25 points the output array holds the layer of the five arrays as the region found them. -/
theorem region2_value (c : Dev nD) :
    (dat2 (F := Ideal) V c).arrAt 5 cfg2.N
      = sage (n := 50000) (V c main_v59) (V c main_v41) (V c main_arg9) (V c main_arg11) (V c main_arg10) :=
  (dat2 (F := Ideal) V c).arrAt_eq_of_cover 5
    (sage (n := 50000) (V c main_v59) (V c main_v41) (V c main_arg9) (V c main_arg11) (V c main_arg10))
    (fun t _ => flushed2_eq V c t) cover2

end Cert.KernelIdeal.RegionValue

end
-- ==== Proof.MlpBlock.lean ====
import proofs.«179098_j48155173323149_1_alg».proof.Proof.Spec
import proofs.«179098_j48155173323149_1_alg».proof.Proof.Gen.KernelIdeal.Skeleton
import Idealize.ShloMosaic.Lib.ValueLayout
import Idealize.ShloMosaic.PureOps.Ideal.Laws

/-!
# The head's arithmetic is the specified head

The last region's body computes, from the pooled rows `g` and the head's two affine maps, a hidden layer
`max (g · W4 + b4) 0`, the logits `hidden · W5 + b5`, and each row's log-softmax taken through the row maximum. Here
that arithmetic, a function of five whole vectors, is read at the extended reals entry by entry and identified with
`Cert.GraphSage.mlp`:

* a product onto the zero splat at `(r, j)` is the sum over the contracted axis of row `r` against column `j`;
* a bias laid as one row and repeated reads its entry at the column; a row statistic laid as one column and repeated
  reads its entry at the row;
* a row's maximum is the fold of `max` over its ten columns from the accumulator's value, a row's sum the sum over them;
* the narrowing casts are the identity at the extended reals.
-/

noncomputable section

namespace Cert.GraphSage.MlpBlock

open Idealize.ShloMosaic Idealize.ShloMosaic.ValueIdx Cert.KernelIdeal Cert.KernelIdeal.Gen

/-! ## The two matrix products at an entry -/

/-- The first product's operand indices: the left operand's row is the result's row. -/
theorem dotHidden_lhs0 (i : S500x64.Idx) (q : dot_S500x128_S128x64_S500x64_1_0_0_1_n_n.contr.Idx) :
    (dot_S500x128_S128x64_S500x64_1_0_0_1_n_n.lhsIdx i q 0).val = (i 0).val := by
  unfold DotDims.lhsIdx
  rw [dif_neg (show ¬(0 : Fin S500x128.rank) ∈ dot_S500x128_S128x64_S500x64_1_0_0_1_n_n.lhsBatch by decide), dif_pos (show (0 : Fin S500x128.rank) ∈ dot_S500x128_S128x64_S500x64_1_0_0_1_n_n.lhsNonContracting by decide)]
  rfl
/-- The first product's operand indices: the left operand's column is the contraction coordinate. -/
theorem dotHidden_lhs1 (i : S500x64.Idx) (q : dot_S500x128_S128x64_S500x64_1_0_0_1_n_n.contr.Idx) :
    (dot_S500x128_S128x64_S500x64_1_0_0_1_n_n.lhsIdx i q 1).val = (q ⟨0, by decide⟩).val :=
  dot_S500x128_S128x64_S500x64_1_0_0_1_n_n.lhsIdx_val_of_single rfl i q
/-- The first product's operand indices: the right operand's row is the contraction coordinate. -/
theorem dotHidden_rhs0 (i : S500x64.Idx) (q : dot_S500x128_S128x64_S500x64_1_0_0_1_n_n.contr.Idx) :
    (dot_S500x128_S128x64_S500x64_1_0_0_1_n_n.rhsIdx i q 0).val = (q ⟨0, by decide⟩).val :=
  dot_S500x128_S128x64_S500x64_1_0_0_1_n_n.rhsIdx_val_of_single rfl i q
/-- The first product's operand indices: the right operand's column is the result's column. -/
theorem dotHidden_rhs1 (i : S500x64.Idx) (q : dot_S500x128_S128x64_S500x64_1_0_0_1_n_n.contr.Idx) :
    (dot_S500x128_S128x64_S500x64_1_0_0_1_n_n.rhsIdx i q 1).val = (i 1).val := by
  unfold DotDims.rhsIdx
  rw [dif_neg (show ¬(1 : Fin S128x64.rank) ∈ dot_S500x128_S128x64_S500x64_1_0_0_1_n_n.rhsBatch by decide), dif_pos (show (1 : Fin S128x64.rank) ∈ dot_S500x128_S128x64_S500x64_1_0_0_1_n_n.rhsNonContracting by decide)]
  rfl

/-- The first product onto the zero splat at `(r, j)`: the sum over the 128 contracted coordinates of row `r` of the left
    operand against column `j` of the right one (the contraction index re-indexed by its one coordinate). -/
theorem dotHidden_apply (x : FVec Ideal S500x128 .bf16) (w : FVec Ideal S128x64 .bf16) (r : Fin 500) (j : Fin 64) :
    matmul dot_S500x128_S128x64_S500x64_1_0_0_1_n_n none x w (constant (F := Ideal) S500x64 .f32 0x00000000#32) (ix2 r j)
      = ∑ k : Fin 128, x (ix2 r k) * w (ix2 k j) := by
  refine (Ideal.matmul_constant_zero_apply dot_S500x128_S128x64_S500x64_1_0_0_1_n_n none x w (ix2 r j)).trans ?_
  rw [← Equiv.sum_comp (contrEquiv1 dot_S500x128_S128x64_S500x64_1_0_0_1_n_n 128 rfl rfl).symm]
  refine Finset.sum_congr rfl fun k _ => ?_
  have hk := contrEquiv1_symm_val dot_S500x128_S128x64_S500x64_1_0_0_1_n_n 128 rfl rfl k
  have el : dot_S500x128_S128x64_S500x64_1_0_0_1_n_n.lhsIdx (ix2 r j) ((contrEquiv1 dot_S500x128_S128x64_S500x64_1_0_0_1_n_n 128 rfl rfl).symm k) = ix2 r k :=
    funext fun a => Fin.ext (by
      match a with
      | ⟨0, _⟩ => exact dotHidden_lhs0 _ _
      | ⟨1, _⟩ => exact (dotHidden_lhs1 _ _).trans hk)
  have er : dot_S500x128_S128x64_S500x64_1_0_0_1_n_n.rhsIdx (ix2 r j) ((contrEquiv1 dot_S500x128_S128x64_S500x64_1_0_0_1_n_n 128 rfl rfl).symm k) = ix2 k j :=
    funext fun a => Fin.ext (by
      match a with
      | ⟨0, _⟩ => exact (dotHidden_rhs0 _ _).trans hk
      | ⟨1, _⟩ => exact dotHidden_rhs1 _ _)
  rw [el, er]

/-- The second product's operand indices: the left operand's row is the result's row. -/
theorem dotLogit_lhs0 (i : S500x10.Idx) (q : dot_S500x64_S64x10_S500x10_1_0_0_1_n_n.contr.Idx) :
    (dot_S500x64_S64x10_S500x10_1_0_0_1_n_n.lhsIdx i q 0).val = (i 0).val := by
  unfold DotDims.lhsIdx
  rw [dif_neg (show ¬(0 : Fin S500x64.rank) ∈ dot_S500x64_S64x10_S500x10_1_0_0_1_n_n.lhsBatch by decide), dif_pos (show (0 : Fin S500x64.rank) ∈ dot_S500x64_S64x10_S500x10_1_0_0_1_n_n.lhsNonContracting by decide)]
  rfl
/-- The second product's operand indices: the left operand's column is the contraction coordinate. -/
theorem dotLogit_lhs1 (i : S500x10.Idx) (q : dot_S500x64_S64x10_S500x10_1_0_0_1_n_n.contr.Idx) :
    (dot_S500x64_S64x10_S500x10_1_0_0_1_n_n.lhsIdx i q 1).val = (q ⟨0, by decide⟩).val :=
  dot_S500x64_S64x10_S500x10_1_0_0_1_n_n.lhsIdx_val_of_single rfl i q
/-- The second product's operand indices: the right operand's row is the contraction coordinate. -/
theorem dotLogit_rhs0 (i : S500x10.Idx) (q : dot_S500x64_S64x10_S500x10_1_0_0_1_n_n.contr.Idx) :
    (dot_S500x64_S64x10_S500x10_1_0_0_1_n_n.rhsIdx i q 0).val = (q ⟨0, by decide⟩).val :=
  dot_S500x64_S64x10_S500x10_1_0_0_1_n_n.rhsIdx_val_of_single rfl i q
/-- The second product's operand indices: the right operand's column is the result's column. -/
theorem dotLogit_rhs1 (i : S500x10.Idx) (q : dot_S500x64_S64x10_S500x10_1_0_0_1_n_n.contr.Idx) :
    (dot_S500x64_S64x10_S500x10_1_0_0_1_n_n.rhsIdx i q 1).val = (i 1).val := by
  unfold DotDims.rhsIdx
  rw [dif_neg (show ¬(1 : Fin S64x10.rank) ∈ dot_S500x64_S64x10_S500x10_1_0_0_1_n_n.rhsBatch by decide), dif_pos (show (1 : Fin S64x10.rank) ∈ dot_S500x64_S64x10_S500x10_1_0_0_1_n_n.rhsNonContracting by decide)]
  rfl

/-- The second product onto the zero splat at `(r, j)`: the sum over the 64 contracted coordinates of row `r` of the left
    operand against column `j` of the right one. -/
theorem dotLogit_apply (x : FVec Ideal S500x64 .bf16) (w : FVec Ideal S64x10 .bf16) (r : Fin 500) (j : Fin 10) :
    matmul dot_S500x64_S64x10_S500x10_1_0_0_1_n_n none x w (constant (F := Ideal) S500x10 .f32 0x00000000#32) (ix2 r j)
      = ∑ k : Fin 64, x (ix2 r k) * w (ix2 k j) := by
  refine (Ideal.matmul_constant_zero_apply dot_S500x64_S64x10_S500x10_1_0_0_1_n_n none x w (ix2 r j)).trans ?_
  rw [← Equiv.sum_comp (contrEquiv1 dot_S500x64_S64x10_S500x10_1_0_0_1_n_n 64 rfl rfl).symm]
  refine Finset.sum_congr rfl fun k _ => ?_
  have hk := contrEquiv1_symm_val dot_S500x64_S64x10_S500x10_1_0_0_1_n_n 64 rfl rfl k
  have el : dot_S500x64_S64x10_S500x10_1_0_0_1_n_n.lhsIdx (ix2 r j) ((contrEquiv1 dot_S500x64_S64x10_S500x10_1_0_0_1_n_n 64 rfl rfl).symm k) = ix2 r k :=
    funext fun a => Fin.ext (by
      match a with
      | ⟨0, _⟩ => exact dotLogit_lhs0 _ _
      | ⟨1, _⟩ => exact (dotLogit_lhs1 _ _).trans hk)
  have er : dot_S500x64_S64x10_S500x10_1_0_0_1_n_n.rhsIdx (ix2 r j) ((contrEquiv1 dot_S500x64_S64x10_S500x10_1_0_0_1_n_n 64 rfl rfl).symm k) = ix2 k j :=
    funext fun a => Fin.ext (by
      match a with
      | ⟨0, _⟩ => exact (dotLogit_rhs0 _ _).trans hk
      | ⟨1, _⟩ => exact dotLogit_rhs1 _ _)
  rw [el, er]

/-! ## The layout operations at an entry -/

/-- A bias of length `b` laid as one row and repeated over `a` rows reads, at `(p, c)`, the bias at `c`. -/
theorem biasRows_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A vector of length `a` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated over `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions at a row -/

/-- The index over row `r` with column `k` put back on the reduced axis is `(r, k)`. -/
theorem lift_row (h : S500x10.Reduces [1] S500) (r : Fin 500) (k : Fin 10) : h.lift (ix1 r) k = ix2 r k :=
  funext fun c => Fin.ext (by
    match c with
    | ⟨0, _⟩ => rfl
    | ⟨1, _⟩ => rfl)

/-- A row's maximum: the fold of `max` over the ten columns from the value of the accumulator's pattern. -/
theorem rowMaximum_apply (z : FVec Ideal S500x10 .f32) (h : S500x10.Reduces [1] S500) (hφ : FKind.Formats .f32)
    (hacc : (0xFF800000#32 : BitVec 32) = FKind.maximumf.neutral .f32 hφ) (r : Fin 500) :
    multiReduction (F := Ideal) .maximumf [1] S500 z 0xFF800000#32 h hφ hacc (ix1 r)
      = (Finset.univ : Finset (Fin 10)).fold max negInfWord (fun k => z (ix2 r k)) := by
  refine (Ideal.multiReduction_maximumf_single z 0xFF800000#32 h hφ hacc (ix1 r)).trans ?_
  show (Finset.univ : Finset (Fin 10)).fold max negInfWord (fun k : Fin 10 => z (h.lift (ix1 r) k)) = _
  exact congrArg (fun f : Fin 10 → EReal => (Finset.univ : Finset (Fin 10)).fold max negInfWord f)
    (funext fun k => congrArg z (lift_row h r k))

/-- A row's sum: the sum over the ten columns. -/
theorem rowSum_apply (e : FVec Ideal S500x10 .f32) (h : S500x10.Reduces [1] S500) (hφ : FKind.Formats .f32)
    (hacc : (0x00000000#32 : BitVec 32) = FKind.add.neutral .f32 hφ) (r : Fin 500) :
    multiReduction (F := Ideal) .add [1] S500 e 0x00000000#32 h hφ hacc (ix1 r) = ∑ k : Fin 10, e (ix2 r k) := by
  refine (Ideal.multiReduction_add_single e 0x00000000#32 h hφ hacc (ix1 r)).trans ?_
  show ∑ k : Fin 10, e (h.lift (ix1 r) k) = _
  exact Finset.sum_congr rfl fun k _ => congrArg e (lift_row h r k)

/-! ## The body's arithmetic in stages

The body is the composite of a hidden layer, an affine map to the logits, and a row-wise log-softmax. Each stage is
named here as one function of whole vectors, at any float instance; the body is their composite by unfolding. -/

section Stages

variable {F : FTy → Type} [FloatOps F]

/-- The hidden layer: the pooled rows and the weights narrowed, multiplied onto the zero splat, the bias added to
    every row, floored at the zero word. -/
def hiddenStage (g : Vec F S500x128 .f32) (w4 : Vec F S128x64 .f32) (b4 : Vec F S64 .f32) : FVec F S500x64 .f32 :=
  maximumf
    (addf
      (matmul dot_S500x128_S128x64_S500x64_1_0_0_1_n_n none
        (truncf .bf16 (shapeCast S500x128 g shapeCasts_S500x128_S500x128 : FVec F S500x128 .f32) bitsLt_bf16_f32)
        (truncf .bf16 (w4 : FVec F S128x64 .f32) bitsLt_bf16_f32)
        (constant S500x64 .f32 0x00000000#32))
      (broadcastTo S500x64 (shapeCast S1x64 b4 shapeCasts_S64_S1x64 : FVec F S1x64 .f32) broadcasts_S1x64_S500x64))
    (broadcast S500x64 (Scalar.ofBits .f32 0x00000000#32 : F .f32))

/-- The logits: the hidden rows and the weights narrowed, multiplied onto the zero splat, the bias added to every row. -/
def logitStage (h : FVec F S500x64 .f32) (w5 : Vec F S64x10 .f32) (b5 : Vec F S10 .f32) : FVec F S500x10 .f32 :=
  addf
    (matmul dot_S500x64_S64x10_S500x10_1_0_0_1_n_n none
      (truncf .bf16 h bitsLt_bf16_f32)
      (truncf .bf16 (w5 : FVec F S64x10 .f32) bitsLt_bf16_f32)
      (constant S500x10 .f32 0x00000000#32))
    (broadcastTo S500x10 (shapeCast S1x10 b5 shapeCasts_S10_S1x10 : FVec F S1x10 .f32) broadcasts_S1x10_S500x10)

/-- Every row's maximum (taken from the pattern of `-∞`, then joined with `-∞`), repeated along its row. -/
def rowMaxStage (z : FVec F S500x10 .f32) : FVec F S500x10 .f32 :=
  broadcastTo S500x10
    (shapeCast S500x1
      (maximumf (broadcast S500 (Scalar.ofBits .f32 0xFF800000#32 : F .f32))
        (multiReduction .maximumf [1] S500 z 0xFF800000#32 reduces_S500x10_S500 (.inl rfl) rfl) : FVec F S500 .f32)
      shapeCasts_S500_S500x1 : FVec F S500x1 .f32)
    broadcasts_S500x1_S500x10

/-- The logarithm of every row's sum, repeated along its row. -/
def logRowSumStage (e : FVec F S500x10 .f32) : FVec F S500x10 .f32 :=
  broadcastTo S500x10
    (log (shapeCast S500x1
      (multiReduction .add [1] S500 e 0x00000000#32 reduces_S500x10_S500 (.inl rfl) rfl : FVec F S500 .f32)
      shapeCasts_S500_S500x1 : FVec F S500x1 .f32))
    broadcasts_S500x1_S500x10

/-- The row-wise log-softmax: with `s` the rows shifted by their maxima, `s` less the logarithm of the row sums of `exp s`. -/
def softmaxStage (z : FVec F S500x10 .f32) : FVec F S500x10 .f32 :=
  subf (subf z (rowMaxStage z)) (logRowSumStage (exp (subf z (rowMaxStage z))))

/-- The body's arithmetic is the composite of the stages. -/
theorem k3_pay1_eq_stages (v0 : Vec F S500x128 .f32) (v3 : Vec F S128x64 .f32) (v6 : Vec F S64 .f32)
    (v13 : Vec F S64x10 .f32) (v16 : Vec F S10 .f32) :
    k3_pay1 v0 v3 v6 v13 v16 = softmaxStage (logitStage (hiddenStage v0 v3 v6) v13 v16) := rfl

end Stages

/-! ## Each stage read at an entry, at the extended reals -/

/-- The hidden layer's entry `(r, k)`: row `r` of the pooled rows against column `k` of the weights, plus the bias at
    `k`, floored at the zero word — the narrowing casts are the identity. -/
theorem hiddenStage_apply (g : Vec Ideal S500x128 .f32) (w4 : Vec Ideal S128x64 .f32) (b4 : Vec Ideal S64 .f32)
    (r : Fin 500) (k : Fin 64) : hiddenStage (F := Ideal) g w4 b4 (ix2 r k) = hiddenAt g w4 b4 r k := by
  unfold hiddenStage hiddenAt
  refine (maximumf_apply _ _ _).trans ?_
  refine congrArg₂ max ?_ rfl
  refine (addf_apply _ _ _).trans ?_
  refine congrArg₂ (· + ·) ?_ ?_
  · refine (dotHidden_apply _ _ r k).trans ?_
    refine Finset.sum_congr rfl fun k' _ => ?_
    refine congrArg₂ (· * ·) ?_ rfl
    exact congrFun (shapeCast_self g shapeCasts_S500x128_S500x128) (ix2 r k')
  · exact biasRows_apply b4 shapeCasts_S64_S1x64 broadcasts_S1x64_S500x64 r k

/-- A logit `(r, j)`: row `r` of the hidden rows against column `j` of the weights, plus the bias at `j`. -/
theorem logitStage_apply (h : FVec Ideal S500x64 .f32) (w5 : Vec Ideal S64x10 .f32) (b5 : Vec Ideal S10 .f32)
    (r : Fin 500) (j : Fin 10) :
    logitStage (F := Ideal) h w5 b5 (ix2 r j) = (∑ k : Fin 64, h (ix2 r k) * w5 (ix2 k j)) + b5 (ix1 j) := by
  unfold logitStage
  refine (addf_apply _ _ _).trans ?_
  refine congrArg₂ (· + ·) ?_ ?_
  · exact dotLogit_apply _ _ r j
  · exact biasRows_apply b5 shapeCasts_S10_S1x10 broadcasts_S1x10_S500x10 r j

/-- The repeated row maximum at `(r, j)` is the maximum of row `r`, whatever the column. -/
theorem rowMaxStage_apply (z : FVec Ideal S500x10 .f32) (r : Fin 500) (j : Fin 10) :
    rowMaxStage (F := Ideal) z (ix2 r j) = rowMax fun k => z (ix2 r k) := by
  unfold rowMaxStage rowMax
  refine (broadcastTo_a1_ab_apply _ broadcasts_S500x1_S500x10 r j).trans ?_
  refine (shapeCast_a_a1_apply _ shapeCasts_S500_S500x1 r 0).trans ?_
  refine (maximumf_apply _ _ _).trans ?_
  refine congrArg₂ max rfl ?_
  exact rowMaximum_apply z _ _ _ r

/-- The repeated logarithm of the row sums at `(r, j)` is the logarithm of the sum of row `r`. -/
theorem logRowSumStage_apply (e : FVec Ideal S500x10 .f32) (r : Fin 500) (j : Fin 10) :
    logRowSumStage (F := Ideal) e (ix2 r j) = Ideal.log (∑ k : Fin 10, e (ix2 r k)) := by
  unfold logRowSumStage
  refine (broadcastTo_a1_ab_apply _ broadcasts_S500x1_S500x10 r j).trans ?_
  show Ideal.log (shapeCast S500x1 _ shapeCasts_S500_S500x1 (ix2 r (0 : Fin 1))) = _
  refine congrArg Ideal.log ?_
  refine (shapeCast_a_a1_apply _ shapeCasts_S500_S500x1 r 0).trans ?_
  exact rowSum_apply e _ _ _ r

/-- The log-softmax stage at `(r, j)` is the log-softmax of row `r` at column `j`. -/
theorem softmaxStage_apply (z : FVec Ideal S500x10 .f32) (r : Fin 500) (j : Fin 10) :
    softmaxStage (F := Ideal) z (ix2 r j) = logSoftmaxAt (fun k => z (ix2 r k)) j := by
  unfold softmaxStage logSoftmaxAt
  have hs : ∀ k : Fin 10, subf z (rowMaxStage z) (ix2 r k) = z (ix2 r k) - rowMax fun k => z (ix2 r k) := fun k =>
    (subf_apply _ _ _).trans (congrArg (z (ix2 r k) - ·) (rowMaxStage_apply z r k))
  refine (subf_apply _ _ _).trans ?_
  refine congrArg₂ (· - ·) (hs j) ?_
  refine (logRowSumStage_apply _ r j).trans ?_
  refine congrArg Ideal.log (Finset.sum_congr rfl fun k _ => ?_)
  show Ideal.exp (subf z (rowMaxStage z) (ix2 r k)) = _
  exact congrArg Ideal.exp (hs k)

/-! ## The body at an entry, and as an array -/

/-- The body's result at `(r, j)` is the head's entry there. -/
theorem k3_pay1_apply (g : Vec Ideal S500x128 .f32) (w4 : Vec Ideal S128x64 .f32) (b4 : Vec Ideal S64 .f32)
    (w5 : Vec Ideal S64x10 .f32) (b5 : Vec Ideal S10 .f32) (r : Fin 500) (j : Fin 10) :
    k3_pay1 (F := Ideal) g w4 b4 w5 b5 (ix2 r j) = mlpAt g w4 b4 w5 b5 r j := by
  rw [k3_pay1_eq_stages]
  refine (softmaxStage_apply _ r j).trans ?_
  unfold mlpAt
  refine congrArg (fun z : Fin 10 → EReal => logSoftmaxAt z j) (funext fun k => ?_)
  refine (logitStage_apply _ w5 b5 r k).trans ?_
  unfold logitAt
  refine congrArg₂ (· + ·) (Finset.sum_congr rfl fun k' _ => ?_) rfl
  exact congrArg₂ (· * ·) (hiddenStage_apply g w4 b4 r k') rfl

/-- The body's result is the head of its five operands. -/
theorem k3_pay1_eq_mlp (g : Vec Ideal S500x128 .f32) (w4 : Vec Ideal S128x64 .f32) (b4 : Vec Ideal S64 .f32)
    (w5 : Vec Ideal S64x10 .f32) (b5 : Vec Ideal S10 .f32) :
    k3_pay1 (F := Ideal) g w4 b4 w5 b5 = mlp g w4 b4 w5 b5 :=
  funext fun i => by
    rw [eq_ix2 i]
    exact k3_pay1_apply g w4 b4 w5 b5 (i 0) (i 1)

end Cert.GraphSage.MlpBlock

end
-- ==== Proof.MlpRegion.lean ====
import proofs.«179098_j48155173323149_1_alg».proof.Proof.Network
import proofs.«179098_j48155173323149_1_alg».proof.Proof.Gen.KernelIdeal.Frame
import proofs.«179098_j48155173323149_1_alg».proof.Proof.MlpBlock

/-!
# The last region's output array is the head of the arrays it finds

The last region runs its body at ONE grid point, and every window's block at that point is its whole array. So
what the point writes back to the output's array is the body's result on the five whole input arrays, which is
the specified head of them (`Cert.GraphSage.MlpBlock.k3_pay1_eq_mlp`), and the write-back covers the array.
The arrays are whatever the region finds on entry: `V` is a parameter throughout.
-/

noncomputable section

open Idealize.ShloMosaic Idealize.ShloMosaic.TcCoe Idealize.SL.Sem
namespace Cert.KernelIdeal.RegionValue
open Cert.KernelIdeal Cert.KernelIdeal.Gen Cert.GraphSage
variable (V : (c : Dev nD) → (b : Ref sig .tc) → Buf (Elt Ideal) ((c : Thread nD τ).loc b))

/-! ## One grid point: every window's block is its whole array -/

/-- The zero offsets of a whole-vector access, rank one. -/
theorem offsets3_rank1 : (![0] : Fin 1 → Nat) = fun _ => 0 := funext fun a => by fin_cases a; rfl
/-- The zero offsets of a whole-vector access, rank two. -/
theorem offsets3_rank2 : (![0, 0] : Fin 2 → Nat) = fun _ => 0 := funext fun a => by fin_cases a <;> rfl

/-- Every window's block index is zero on every axis, decided over the grid's one point. -/
theorem index3_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

/-- Window 0's one block is its whole array. -/
theorem block3_0 (c : Dev nD) (t : Fin cfg3.N) : (iblk3 V c 0 t : S500x128.Idx → EReal) = V c main_v71 := by
  obtain ⟨e0, e1, e2, e3, e4, e5, e6, e7, -⟩ := index3_zero t
  funext y
  show V c main_v71 (((cfg3.win 0).blk t).view.emb y) = V c main_v71 y
  refine congrArg (V c main_v71) (funext fun a => Fin.ext ?_)
  match a with
  | ⟨0, _⟩ => show win3_0.index t (0 : Fin 2) * 500 + 1 * (y 0).val = (y 0).val; omega
  | ⟨1, _⟩ => show win3_0.index t (1 : Fin 2) * 128 + 1 * (y 1).val = (y 1).val; omega

/-- Window 1's one block is its whole array. -/
theorem block3_1 (c : Dev nD) (t : Fin cfg3.N) : (iblk3 V c 1 t : S128x64.Idx → EReal) = V c main_arg12 := by
  obtain ⟨e0, e1, e2, e3, e4, e5, e6, e7, -⟩ := index3_zero t
  funext y
  show V c main_arg12 (((cfg3.win 1).blk t).view.emb y) = V c main_arg12 y
  refine congrArg (V c main_arg12) (funext fun a => Fin.ext ?_)
  match a with
  | ⟨0, _⟩ => show win3_1.index t (0 : Fin 2) * 128 + 1 * (y 0).val = (y 0).val; omega
  | ⟨1, _⟩ => show win3_1.index t (1 : Fin 2) * 64 + 1 * (y 1).val = (y 1).val; omega

/-- Window 2's one block is its whole array. -/
theorem block3_2 (c : Dev nD) (t : Fin cfg3.N) : (iblk3 V c 2 t : S64.Idx → EReal) = V c main_arg13 := by
  obtain ⟨e0, e1, e2, e3, e4, e5, e6, e7, -⟩ := index3_zero t
  funext y
  show V c main_arg13 (((cfg3.win 2).blk t).view.emb y) = V c main_arg13 y
  refine congrArg (V c main_arg13) (funext fun a => Fin.ext ?_)
  match a with
  | ⟨0, _⟩ => show win3_2.index t (0 : Fin 1) * 64 + 1 * (y 0).val = (y 0).val; omega

/-- Window 3's one block is its whole array. -/
theorem block3_3 (c : Dev nD) (t : Fin cfg3.N) : (iblk3 V c 3 t : S64x10.Idx → EReal) = V c main_arg14 := by
  obtain ⟨e0, e1, e2, e3, e4, e5, e6, e7, -⟩ := index3_zero t
  funext y
  show V c main_arg14 (((cfg3.win 3).blk t).view.emb y) = V c main_arg14 y
  refine congrArg (V c main_arg14) (funext fun a => Fin.ext ?_)
  match a with
  | ⟨0, _⟩ => show win3_3.index t (0 : Fin 2) * 64 + 1 * (y 0).val = (y 0).val; omega
  | ⟨1, _⟩ => show win3_3.index t (1 : Fin 2) * 10 + 1 * (y 1).val = (y 1).val; omega

/-- Window 4's one block is its whole array. -/
theorem block3_4 (c : Dev nD) (t : Fin cfg3.N) : (iblk3 V c 4 t : S10.Idx → EReal) = V c main_arg15 := by
  obtain ⟨e0, e1, e2, e3, e4, e5, e6, e7, -⟩ := index3_zero t
  funext y
  show V c main_arg15 (((cfg3.win 4).blk t).view.emb y) = V c main_arg15 y
  refine congrArg (V c main_arg15) (funext fun a => Fin.ext ?_)
  match a with
  | ⟨0, _⟩ => show win3_4.index t (0 : Fin 1) * 10 + 1 * (y 0).val = (y 0).val; omega

/-! ## What the point writes back, and the array after the region -/

/-- The body's result on the windows' blocks is the head of the five arrays as the region finds them. -/
theorem payload3 (c : Dev nD) (t : Fin cfg3.N) :
    k3_pay1 (F := Ideal) (iblk3 V c 0 t) (iblk3 V c 1 t) (iblk3 V c 2 t) (iblk3 V c 3 t) (iblk3 V c 4 t)
      = mlp (V c main_v71) (V c main_arg12) (V c main_arg13) (V c main_arg14) (V c main_arg15) :=
  (MlpBlock.k3_pay1_eq_mlp (iblk3 V c 0 t) (iblk3 V c 1 t) (iblk3 V c 2 t) (iblk3 V c 3 t) (iblk3 V c 4 t)).trans
    (congr (congr (congr (congr (congrArg mlp (block3_0 V c t)) (block3_1 V c t)) (block3_2 V c t)) (block3_3 V c t))
      (block3_4 V c t))

/-- What the point writes back to the output's array is the block of the head there: the body's one store covers its
    buffer, each load reads a whole block. -/
theorem flushed3_5 (c : Dev nD) (t : Fin cfg3.N) :
    (dat3 (F := Ideal) V c).flushed 5 t
      = ((cfg3.win 5).blk t).view.read (Elt Ideal)
          (mlp (V c main_v71) (V c main_arg12) (V c main_arg13) (V c main_arg14) (V c main_arg15)) := by
  show (cfg3.win 5).cut (grid3.coords t) ((dat3 V c).after 5 t) = _
  rw [after3_5]
  unfold out3_5
  rw [View.canon_unit_zero offsets3_rank2]
  simp only [View.ld_unit_zero (S := S500x128) offsets3_rank2, View.ld_unit_zero (S := S128x64) offsets3_rank2,
    View.ld_unit_zero (S := S64) offsets3_rank1, View.ld_unit_zero (S := S64x10) offsets3_rank2, View.ld_unit_zero (S := S10) offsets3_rank1]
  obtain ⟨-, -, -, -, -, -, -, -, e8, e9⟩ := index3_zero t
  funext j
  show k3_pay1 (F := Ideal) (iblk3 V c 0 t) (iblk3 V c 1 t) (iblk3 V c 2 t) (iblk3 V c 3 t) (iblk3 V c 4 t) j
    = mlp (V c main_v71) (V c main_arg12) (V c main_arg13) (V c main_arg14) (V c main_arg15) (((cfg3.win 5).blk t).view.emb j)
  have hj : ((cfg3.win 5).blk t).view.emb j = j := funext fun a => Fin.ext (by
    match a with
    | ⟨0, _⟩ => show win3_5.index t (0 : Fin 2) * 500 + 1 * (j 0).val = (j 0).val; omega
    | ⟨1, _⟩ => show win3_5.index t (1 : Fin 2) * 10 + 1 * (j 1).val = (j 1).val; omega)
  rw [hj]
  exact congrFun (payload3 V c t) j

/-- An index of the output's array is in the point's block iff each coordinate is in the block's range on its axis. -/
theorem mem_block3_5 (t : Fin cfg3.N) (i : S500x10.Idx) :
    i ∈ ((cfg3.win 5).blk t).view.set ↔ ∀ a : Fin 2, win3_5.index t a * S500x10.size a ≤ (i a).val ∧ (i a).val < win3_5.index t a * S500x10.size a + S500x10.size a := by
  show i ∈ ((View.whole main_v72).slice (win3_5.rect t)).set ↔ _
  rw [View.set_slice_whole, Rect.mem_set_unit]
  exact Iff.rfl

/-- The output's array after the region is the head of the five arrays the region finds: the one point writes its
    block back, and the block is the whole array. -/
theorem region3_value (c : Dev nD) :
    (dat3 (F := Ideal) V c).arrAt 5 cfg3.N
      = mlp (V c main_v71) (V c main_arg12) (V c main_arg13) (V c main_arg14) (V c main_arg15) :=
  (dat3 V c).arrAt_eq_of_cover 5 _ (fun t _ => flushed3_5 V c t) (fun i => ⟨t3_0, flush3_5 t3_0, by
    rw [mem_block3_5]
    obtain ⟨-, -, -, -, -, -, -, -, e8, e9⟩ := index3_zero t3_0
    have h0 : (i 0).val < 500 := (i 0).isLt
    have h1 : (i 1).val < 10 := (i 1).isLt
    intro a
    match a with
    | ⟨0, _⟩ => show win3_5.index t3_0 (0 : Fin 2) * 500 ≤ (i 0).val ∧ (i 0).val < win3_5.index t3_0 (0 : Fin 2) * 500 + 500; omega
    | ⟨1, _⟩ => show win3_5.index t3_0 (1 : Fin 2) * 10 ≤ (i 1).val ∧ (i 1).val < win3_5.index t3_0 (1 : Fin 2) * 10 + 10; omega⟩)

end Cert.KernelIdeal.RegionValue

end
-- ==== Proof.RefAggr.lean ====
import proofs.«179098_j48155173323149_1_alg».proof.Proof.Network
import proofs.«179098_j48155173323149_1_alg».proof.Proof.Gen.ReferenceIdeal.Read

/-!
# The reference's aggregation steps are the shared ones

Each neighbourhood mean of the reference, and its pooled mean, is written with the same host operations, in the
same order and with the same dimension numbers and literals, as `aggr` and `pool`: gather the source rows
(a negative index wrapped by the number of rows), add them up at the destinations from the zero array, count the
arriving edges by adding ones, floor the counts at one, broadcast them along the columns and divide. So each
equation below holds by unfolding the stage definitions on the left and `aggr`, `pool`, `srcOf`, `dstOf` on
the right down to one and the same nest of operations; the gathers and scatter-adds themselves are never opened.
The features that enter a layer's mean are the previous layer's output, which stays a whole array here.
-/

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.GraphSage

variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128x64, .f32⟩ : BufTy).Contents (Elt Ideal)) (x13 : (⟨S64, .f32⟩ : BufTy).Contents (Elt Ideal))
  (x14 : (⟨S64x10, .f32⟩ : BufTy).Contents (Elt Ideal)) (x15 : (⟨S10, .f32⟩ : BufTy).Contents (Elt Ideal))

/-- The first layer's neighbourhood mean: the mean of the rows of the node features over incoming edges. -/
theorem aggr1 : val_main_v21 (F := Ideal) x0 x1 = aggr (F := Ideal) x0 (srcOf x1) (dstOf x1) := by
  unfold val_main_v21 val_main_v13 val_main_v11 val_main_cst val_main_v12 val_main_v3 val_main_v2 val_main_v10
    val_main_v9 val_main_v8 val_main_v5 val_main_v1 val_main_v0 val_main_v4 val_main_c val_main_v7 val_main_v6
    val_main_c_0 val_main_v20 val_main_v19 val_main_v17 val_main_v15 val_main_cst_2 val_main_v16 val_main_v14
    val_main_cst_1 val_main_v18 val_main_cst_3
  unfold aggr srcOf dstOf
  rfl

/-- The second layer's neighbourhood mean: the same mean of the first layer's output. -/
theorem aggr2 :
    val_main_v46 (F := Ideal) x0 x1 x3 x4 x5 = aggr (F := Ideal) (val_main_v28 (F := Ideal) x0 x1 x3 x4 x5) (srcOf x1) (dstOf x1) := by
  unfold val_main_v46 val_main_v38 val_main_v36 val_main_cst_6 val_main_v37 val_main_v3 val_main_v2
    val_main_v35 val_main_v34 val_main_v33 val_main_v30 val_main_v1 val_main_v0 val_main_v29 val_main_c_4
    val_main_v32 val_main_v31 val_main_c_5 val_main_v45 val_main_v44 val_main_v42 val_main_v40 val_main_cst_8
    val_main_v41 val_main_v39 val_main_cst_7 val_main_v43 val_main_cst_9
  unfold aggr srcOf dstOf
  rfl

/-- The third layer's neighbourhood mean: the same mean of the second layer's output. -/
theorem aggr3 :
    val_main_v71 (F := Ideal) x0 x1 x3 x4 x5 x6 x7 x8 = aggr (F := Ideal) (val_main_v53 (F := Ideal) x0 x1 x3 x4 x5 x6 x7 x8) (srcOf x1) (dstOf x1) := by
  unfold val_main_v71 val_main_v63 val_main_v61 val_main_cst_12 val_main_v62 val_main_v3 val_main_v2
    val_main_v60 val_main_v59 val_main_v58 val_main_v55 val_main_v1 val_main_v0 val_main_v54 val_main_c_10
    val_main_v57 val_main_v56 val_main_c_11 val_main_v70 val_main_v69 val_main_v67 val_main_v65
    val_main_cst_14 val_main_v66 val_main_v64 val_main_cst_13 val_main_v68 val_main_cst_15
  unfold aggr srcOf dstOf
  rfl

/-- The pooled mean: the rows of the third layer's output averaged over each segment. -/
theorem pool_eq :
    val_main_v89 (F := Ideal) x0 x1 x2 x3 x4 x5 x6 x7 x8 x9 x10 x11 = Cert.GraphSage.pool (F := Ideal) (val_main_v78 (F := Ideal) x0 x1 x3 x4 x5 x6 x7 x8 x9 x10 x11) x2 := by
  unfold val_main_v89 val_main_v81 val_main_v79 val_main_cst_16 val_main_v80 val_main_v88 val_main_v87
    val_main_v85 val_main_v83 val_main_cst_18 val_main_v84 val_main_v82 val_main_cst_17 val_main_v86
    val_main_cst_19
  unfold Cert.GraphSage.pool
  rfl

end Cert.ReferenceIdeal.RefValue

end
-- ==== Proof.RefLayers.lean ====
import proofs.«179098_j48155173323149_1_alg».proof.Proof.Spec
import proofs.«179098_j48155173323149_1_alg».proof.Proof.Gen.ReferenceIdeal.Read

/-!
# Each layer of the reference is the layer of the specification

A layer of the reference multiplies the neighbourhood mean by the first weight matrix, adds the bias row, adds the
product of the node's own features with the second weight matrix, and floors the sum at the zero word: entry
`(r, j)` is `max ((∑ₖ A (r, k) * Wl (k, j) + b j) + ∑ₖ X (r, k) * Wr (k, j)) 0`, the order `(p + b) + q` of
`sageRAt`. Each equation is read off entry by entry: the stages are read at `(r, j)` from the outermost inwards,
the composed index functions are identified with `(r, k)`, `(k, j)` and `j`, and the operations at the ideal
values are those of the extended reals. The neighbourhood mean and the previous layer's output stay whole arrays.
-/

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.GraphSage

/-! Layer one: at entry `(r, j)` and contraction index `k` the two products read `(r, k)` of the left factor and
    `(k, j)` of the weights, and the bias, broadcast first to one row and then down the rows, reads `j`. -/
theorem lidxA (r : Fin 50000) (j k : Fin 128) : lidx_main_v22 (ix2 r j) k = ix2 r k :=
  funext fun a => Fin.ext (by match a with | ⟨0, _⟩ => rfl | ⟨1, _⟩ => rfl)
theorem ridxA (r : Fin 50000) (j k : Fin 128) : ridx_main_v22 (ix2 r j) k = ix2 k j :=
  funext fun a => Fin.ext (by match a with | ⟨0, _⟩ => rfl | ⟨1, _⟩ => rfl)
theorem lidxA' (r : Fin 50000) (j k : Fin 128) : lidx_main_v26 (ix2 r j) k = ix2 r k :=
  funext fun a => Fin.ext (by match a with | ⟨0, _⟩ => rfl | ⟨1, _⟩ => rfl)
theorem ridxA' (r : Fin 50000) (j k : Fin 128) : ridx_main_v26 (ix2 r j) k = ix2 k j :=
  funext fun a => Fin.ext (by match a with | ⟨0, _⟩ => rfl | ⟨1, _⟩ => rfl)
theorem bidxA (r : Fin 50000) (j : Fin 128) : idx_main_v23 (idx_main_v24 (ix2 r j)) = ix1 j :=
  funext fun a => Fin.ext (by match a with | ⟨0, _⟩ => rfl)

/-! Layer two: at entry `(r, j)` and contraction index `k` the two products read `(r, k)` of the left factor and
    `(k, j)` of the weights, and the bias, broadcast first to one row and then down the rows, reads `j`. -/
theorem lidxB (r : Fin 50000) (j k : Fin 128) : lidx_main_v47 (ix2 r j) k = ix2 r k :=
  funext fun a => Fin.ext (by match a with | ⟨0, _⟩ => rfl | ⟨1, _⟩ => rfl)
theorem ridxB (r : Fin 50000) (j k : Fin 128) : ridx_main_v47 (ix2 r j) k = ix2 k j :=
  funext fun a => Fin.ext (by match a with | ⟨0, _⟩ => rfl | ⟨1, _⟩ => rfl)
theorem lidxB' (r : Fin 50000) (j k : Fin 128) : lidx_main_v51 (ix2 r j) k = ix2 r k :=
  funext fun a => Fin.ext (by match a with | ⟨0, _⟩ => rfl | ⟨1, _⟩ => rfl)
theorem ridxB' (r : Fin 50000) (j k : Fin 128) : ridx_main_v51 (ix2 r j) k = ix2 k j :=
  funext fun a => Fin.ext (by match a with | ⟨0, _⟩ => rfl | ⟨1, _⟩ => rfl)
theorem bidxB (r : Fin 50000) (j : Fin 128) : idx_main_v48 (idx_main_v49 (ix2 r j)) = ix1 j :=
  funext fun a => Fin.ext (by match a with | ⟨0, _⟩ => rfl)

/-! Layer three: at entry `(r, j)` and contraction index `k` the two products read `(r, k)` of the left factor and
    `(k, j)` of the weights, and the bias, broadcast first to one row and then down the rows, reads `j`. -/
theorem lidxC (r : Fin 50000) (j k : Fin 128) : lidx_main_v72 (ix2 r j) k = ix2 r k :=
  funext fun a => Fin.ext (by match a with | ⟨0, _⟩ => rfl | ⟨1, _⟩ => rfl)
theorem ridxC (r : Fin 50000) (j k : Fin 128) : ridx_main_v72 (ix2 r j) k = ix2 k j :=
  funext fun a => Fin.ext (by match a with | ⟨0, _⟩ => rfl | ⟨1, _⟩ => rfl)
theorem lidxC' (r : Fin 50000) (j k : Fin 128) : lidx_main_v76 (ix2 r j) k = ix2 r k :=
  funext fun a => Fin.ext (by match a with | ⟨0, _⟩ => rfl | ⟨1, _⟩ => rfl)
theorem ridxC' (r : Fin 50000) (j k : Fin 128) : ridx_main_v76 (ix2 r j) k = ix2 k j :=
  funext fun a => Fin.ext (by match a with | ⟨0, _⟩ => rfl | ⟨1, _⟩ => rfl)
theorem bidxC (r : Fin 50000) (j : Fin 128) : idx_main_v73 (idx_main_v74 (ix2 r j)) = ix1 j :=
  funext fun a => Fin.ext (by match a with | ⟨0, _⟩ => rfl)

variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128x64, .f32⟩ : BufTy).Contents (Elt Ideal)) (x13 : (⟨S64, .f32⟩ : BufTy).Contents (Elt Ideal))
  (x14 : (⟨S64x10, .f32⟩ : BufTy).Contents (Elt Ideal)) (x15 : (⟨S10, .f32⟩ : BufTy).Contents (Elt Ideal))

/-- The first layer: the mean `A` is that of the node features, `X` the node features themselves. -/
theorem layer1 :
    val_main_v28 (F := Ideal) x0 x1 x3 x4 x5
      = sageR (n := 50000) (val_main_v21 (F := Ideal) x0 x1) x0 x3 x5 x4 := by
  funext i
  obtain ⟨r, j, rfl⟩ : ∃ (r : Fin 50000) (j : Fin 128), i = ix2 r j := ⟨i 0, i 1, eq_ix2 i⟩
  rw [val_main_v28_apply, val_main_v27_apply, val_main_v25_apply, val_main_v22_apply, val_main_v24_apply, val_main_v23_apply,
    val_main_v26_apply, val_main_call0_v0_apply, val_main_call0_cst_apply]
  simp only [lidxA, ridxA, lidxA', ridxA', bidxA, Ideal.addf_def, Ideal.maximumf_def, Ideal.ofBits_def]
  rfl

/-- The second layer, over the first layer's output and its neighbourhood mean. -/
theorem layer2 :
    val_main_v53 (F := Ideal) x0 x1 x3 x4 x5 x6 x7 x8
      = sageR (n := 50000) (val_main_v46 (F := Ideal) x0 x1 x3 x4 x5) (val_main_v28 (F := Ideal) x0 x1 x3 x4 x5) x6 x8 x7 := by
  funext i
  obtain ⟨r, j, rfl⟩ : ∃ (r : Fin 50000) (j : Fin 128), i = ix2 r j := ⟨i 0, i 1, eq_ix2 i⟩
  rw [val_main_v53_apply, val_main_v52_apply, val_main_v50_apply, val_main_v47_apply, val_main_v49_apply, val_main_v48_apply,
    val_main_v51_apply, val_main_call1_v0_apply, val_main_call1_cst_apply]
  simp only [lidxB, ridxB, lidxB', ridxB', bidxB, Ideal.addf_def, Ideal.maximumf_def, Ideal.ofBits_def]
  rfl

/-- The third layer, over the second layer's output and its neighbourhood mean. -/
theorem layer3 :
    val_main_v78 (F := Ideal) x0 x1 x3 x4 x5 x6 x7 x8 x9 x10 x11
      = sageR (n := 50000) (val_main_v71 (F := Ideal) x0 x1 x3 x4 x5 x6 x7 x8) (val_main_v53 (F := Ideal) x0 x1 x3 x4 x5 x6 x7 x8) x9 x11 x10 := by
  funext i
  obtain ⟨r, j, rfl⟩ : ∃ (r : Fin 50000) (j : Fin 128), i = ix2 r j := ⟨i 0, i 1, eq_ix2 i⟩
  rw [val_main_v78_apply, val_main_v77_apply, val_main_v75_apply, val_main_v72_apply, val_main_v74_apply, val_main_v73_apply,
    val_main_v76_apply, val_main_call2_v0_apply, val_main_call2_cst_apply]
  simp only [lidxC, ridxC, lidxC', ridxC', bidxC, Ideal.addf_def, Ideal.maximumf_def, Ideal.ofBits_def]
  rfl

end Cert.ReferenceIdeal.RefValue

end
-- ==== Proof.RefHead.lean ====
import proofs.«179098_j48155173323149_1_alg».proof.Proof.Spec
import proofs.«179098_j48155173323149_1_alg».proof.Proof.Gen.ReferenceIdeal.Read

/-!
# The reference's head is the head of the specification

From the pooled mean `g` the reference forms the hidden layer `max (g · W4 + b4) 0`, the logits
`hidden · W5 + b5`, and the row-wise log-softmax of the logits: with `M` a row's maximum — the fold of `max` over
the row's ten entries from the word of `-∞`, joined once more with that word — and `s j = z j - M`, the entry is
`s j - log (0 + ∑ₖ exp (s k))`, the sum starting from the zero word. Each stage is read at an entry; the row
maximum, a reduction over the second axis, is read as the fold over that axis's coordinates (the reduced index with
the coordinate inserted on the dropped axis is `(r, k)`); the zero word the sum starts from is the extended real
`0` and drops out. The pooled mean stays a whole array throughout.
-/

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.GraphSage

/-! The composed index functions at an entry. A product at `(r, c)` with contraction index `k` reads `(r, k)` and
    `(k, c)`; a bias broadcast to one row and then down the rows reads the column; the row maximum and the row sum,
    broadcast back along the columns, read the row. -/
theorem lidx90 (r : Fin 500) (c : Fin 64) (k : Fin 128) : lidx_main_v90 (ix2 r c) k = ix2 r k :=
  funext fun a => Fin.ext (by match a with | ⟨0, _⟩ => rfl | ⟨1, _⟩ => rfl)
theorem ridx90 (r : Fin 500) (c : Fin 64) (k : Fin 128) : ridx_main_v90 (ix2 r c) k = ix2 k c :=
  funext fun a => Fin.ext (by match a with | ⟨0, _⟩ => rfl | ⟨1, _⟩ => rfl)
theorem bidx92 (r : Fin 500) (c : Fin 64) : idx_main_v91 (idx_main_v92 (ix2 r c)) = ix1 c :=
  funext fun a => Fin.ext (by match a with | ⟨0, _⟩ => rfl)
theorem lidx95 (r : Fin 500) (j : Fin 10) (k : Fin 64) : lidx_main_v95 (ix2 r j) k = ix2 r k :=
  funext fun a => Fin.ext (by match a with | ⟨0, _⟩ => rfl | ⟨1, _⟩ => rfl)
theorem ridx95 (r : Fin 500) (j : Fin 10) (k : Fin 64) : ridx_main_v95 (ix2 r j) k = ix2 k j :=
  funext fun a => Fin.ext (by match a with | ⟨0, _⟩ => rfl | ⟨1, _⟩ => rfl)
theorem bidx97 (r : Fin 500) (j : Fin 10) : idx_main_v96 (idx_main_v97 (ix2 r j)) = ix1 j :=
  funext fun a => Fin.ext (by match a with | ⟨0, _⟩ => rfl)
theorem midx (r : Fin 500) (j : Fin 10) : idx_main_call4_v3 (idx_main_call4_v4 (ix2 r j)) = ix1 r :=
  funext fun a => Fin.ext (by match a with | ⟨0, _⟩ => rfl)
theorem sidx (r : Fin 500) (j k : Fin 10) :
    idx_main_call4_v7 (idx_main_call4_v8 (idx_main_call4_v10 (ix2 r j))) k = ix2 r k :=
  funext fun a => Fin.ext (by match a with | ⟨0, _⟩ => rfl | ⟨1, _⟩ => rfl)

/-- A maximum-reduction of a 500 × 10 array over its second axis, at row `r`: the fold of `max` from the initial
    value over the row's ten entries. The reduction over one axis is the fold over that axis's coordinates of the
    array at the reduced index with the coordinate inserted, and that index is `(r, k)`. -/
theorem reduce_max_row (z : S500x10.Idx → EReal) (init : S_.Idx → EReal) (r : Fin 500) :
    Host.reduce (α := EReal) (FloatOps.maximumf (F := Ideal) (φ := .f32)) z init reducesTo_S500x10_S500_d1 h_S_ (ix1 r)
      = (Finset.univ : Finset (Fin 10)).fold max (init (Shape.Idx.first h_S_)) (fun k => z (ix2 r k)) := by
  rw [Host.reduce_eq_fold_single (FloatOps.maximumf (F := Ideal) (φ := .f32)) z init reducesTo_S500x10_S500_d1 (by decide)
    h_S_ (ix1 r)]
  exact Finset.fold_congr (fun k _ => congrArg z (funext fun a => Fin.ext (by match a with | ⟨0, _⟩ => rfl | ⟨1, _⟩ => rfl)))

variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128x64, .f32⟩ : BufTy).Contents (Elt Ideal)) (x13 : (⟨S64, .f32⟩ : BufTy).Contents (Elt Ideal))
  (x14 : (⟨S64x10, .f32⟩ : BufTy).Contents (Elt Ideal)) (x15 : (⟨S10, .f32⟩ : BufTy).Contents (Elt Ideal))

/-- The hidden layer at `(r, c)`: the pooled row against column `c` of `W4`, plus the bias, floored at the zero word. -/
theorem hidden_eq (r : Fin 500) (c : Fin 64) :
    val_main_v94 (F := Ideal) x0 x1 x2 x3 x4 x5 x6 x7 x8 x9 x10 x11 x12 x13 (ix2 r c) = hiddenAt (val_main_v89 (F := Ideal) x0 x1 x2 x3 x4 x5 x6 x7 x8 x9 x10 x11) x12 x13 r c := by
  rw [val_main_v94_apply, val_main_v93_apply, val_main_v90_apply, val_main_v92_apply, val_main_v91_apply,
    val_main_call3_v0_apply, val_main_call3_cst_apply]
  simp only [lidx90, ridx90, bidx92, Ideal.addf_def, Ideal.maximumf_def, Ideal.ofBits_def]
  rfl

/-- A logit at `(r, j)`: the hidden row against column `j` of `W5`, plus the bias. -/
theorem logit_eq (r : Fin 500) (j : Fin 10) :
    val_main_v98 (F := Ideal) x0 x1 x2 x3 x4 x5 x6 x7 x8 x9 x10 x11 x12 x13 x14 x15 (ix2 r j) = logitAt (val_main_v89 (F := Ideal) x0 x1 x2 x3 x4 x5 x6 x7 x8 x9 x10 x11) x12 x13 x14 x15 r j := by
  rw [val_main_v98_apply, val_main_v95_apply, val_main_v97_apply, val_main_v96_apply]
  simp only [lidx95, ridx95, bidx97, hidden_eq, Ideal.addf_def]
  rfl

/-- The maximum of row `r` of the logits as the reference takes it: the fold from the word of `-∞`, joined with
    that word on the left. -/
theorem rowmax_eq (r : Fin 500) :
    val_main_call4_v2 (F := Ideal) x0 x1 x2 x3 x4 x5 x6 x7 x8 x9 x10 x11 x12 x13 x14 x15 (ix1 r) = rowMax (fun k => logitAt (val_main_v89 (F := Ideal) x0 x1 x2 x3 x4 x5 x6 x7 x8 x9 x10 x11) x12 x13 x14 x15 r k) := by
  rw [val_main_call4_v2_apply, val_main_call4_v1_apply, val_main_call4_cst_0_apply]
  unfold val_main_call4_v0
  rw [reduce_max_row]
  simp only [logit_eq, val_main_call4_cst_apply, Ideal.maximumf_def, Ideal.ofBits_def]
  rfl

/-- A logit less its row's maximum. -/
theorem shifted_eq (r : Fin 500) (j : Fin 10) :
    val_main_call4_v5 (F := Ideal) x0 x1 x2 x3 x4 x5 x6 x7 x8 x9 x10 x11 x12 x13 x14 x15 (ix2 r j)
      = logitAt (val_main_v89 (F := Ideal) x0 x1 x2 x3 x4 x5 x6 x7 x8 x9 x10 x11) x12 x13 x14 x15 r j - rowMax (fun k => logitAt (val_main_v89 (F := Ideal) x0 x1 x2 x3 x4 x5 x6 x7 x8 x9 x10 x11) x12 x13 x14 x15 r k) := by
  rw [val_main_call4_v5_apply, val_main_call4_v4_apply, val_main_call4_v3_apply, midx, logit_eq, rowmax_eq]
  rfl

/-- The reference's result is the head applied to its pooled mean. The row sum of the exponentials starts from the
    zero word, which is the extended real `0`: `0 + s = s`. -/
theorem head_eq : val_main_v99 (F := Ideal) x0 x1 x2 x3 x4 x5 x6 x7 x8 x9 x10 x11 x12 x13 x14 x15 = mlp (val_main_v89 (F := Ideal) x0 x1 x2 x3 x4 x5 x6 x7 x8 x9 x10 x11) x12 x13 x14 x15 := by
  funext i
  obtain ⟨r, j, rfl⟩ : ∃ (r : Fin 500) (j : Fin 10), i = ix2 r j := ⟨i 0, i 1, eq_ix2 i⟩
  rw [val_main_v99_apply, val_main_call4_v10_apply, val_main_call4_v9_apply, val_main_call4_v8_apply,
    val_main_call4_v7_apply, val_main_call4_cst_1_apply]
  simp only [val_main_call4_v6_apply, sidx, shifted_eq, Ideal.subf_def, Ideal.hostUnary_log_def, Ideal.hostUnary_exp_def,
    Ideal.ofBits_def, Ideal.ofBits_zero_f32, zero_add]
  rfl

end Cert.ReferenceIdeal.RefValue

end
-- ==== Proof.RefValue.lean ====
import proofs.«179098_j48155173323149_1_alg».proof.Proof.Network
import proofs.«179098_j48155173323149_1_alg».proof.Proof.Gen.ReferenceIdeal.Read
import proofs.«179098_j48155173323149_1_alg».proof.Proof.RefAggr
import proofs.«179098_j48155173323149_1_alg».proof.Proof.RefLayers
import proofs.«179098_j48155173323149_1_alg».proof.Proof.RefHead

/-!
# The reference's result is the network function

The reference's result array, as a function of its sixteen argument arrays, is the network over the layer that adds
its summands in the order `(p + b) + q`: the result is the head of the pooled mean; the pooled mean is `pool` of
the third layer's output; each layer's output is `sageR` of its neighbourhood mean and of the previous layer's
output (the node features for the first); each neighbourhood mean is `aggr` of the previous layer's output along
the edge list. Rewriting from the result inwards gives the nest that `network` names.
-/

noncomputable section

open Idealize.ShloMosaic Idealize.ShloMosaic.TcCoe Idealize.SL.Sem
namespace Cert.ReferenceIdeal.RefValue
open Cert.ReferenceIdeal Cert.GraphSage

theorem ref_value (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x64, .f32⟩ : BufTy).Contents (Elt Ideal)) (x13 : (⟨S64, .f32⟩ : BufTy).Contents (Elt Ideal)) (x14 : (⟨S64x10, .f32⟩ : BufTy).Contents (Elt Ideal)) (x15 : (⟨S10, .f32⟩ : BufTy).Contents (Elt Ideal)) :
    Cert.ReferenceIdeal.Read.val_main_v99 (F := Ideal) x0 x1 x2 x3 x4 x5 x6 x7 x8 x9 x10 x11 x12 x13 x14 x15
      = network (sageR (n := 50000)) x0 x1 x2 x3 x4 x5 x6 x7 x8 x9 x10 x11 x12 x13 x14 x15 := by
  rw [head_eq, pool_eq, layer3, aggr3, layer2, aggr2, layer1, aggr1]
  rfl

end Cert.ReferenceIdeal.RefValue

end
-- ==== Proof.lean ====
/-
  Two programs for one network — three mean-aggregating graph-convolution layers over 50000 nodes and 600000 edges,
  a mean pool into 500 segments and a two-layer head with a row-wise log-softmax — compute the same array of
  extended reals.

  The kernel's program runs the aggregation steps as host operations and each layer's affine part and rectifier,
  and the whole head, inside a region (a grid of row blocks for a layer, one block for the head). The reference
  runs everything as host operations. The result is stated once, as `network` (Proof/Network.lean) of the sixteen
  argument arrays, over the entry-by-entry formulas of Proof/Spec.lean and the aggregation functions of
  Proof/HostChain.lean, which are the two programs' own operations and are never opened.

  * The kernel's result buffer holds `network sage` of the arguments: its run with the result buffer named
    (Proof/KernelRun.lean), each region's output as a function of the contents it is entered with
    (Proof/SageRegion0.lean … SageRegion2.lean, Proof/MlpRegion.lean), each line of host operations between
    them (Proof/HostStretch.lean), and the walk through the boundaries (Proof/ResultValue.lean).
  * The reference's result is `network sageR` of its arguments (Proof/RefValue.lean).
  * `sageR` and `sage` add a layer's three summands in two orders; addition of extended reals is commutative
    and associative, infinities included, so they are one function (`network_sageR_eq`) and no finiteness of the
    inputs is used. A narrowing of a matrix product's operands to a shorter float format is the identity on
    extended reals, so it does not appear in the formulas at all.
-/
import proofs.«179098_j48155173323149_1_alg».proof.Defs
import proofs.«179098_j48155173323149_1_alg».proof.Proof.Gen.Kernel
import proofs.«179098_j48155173323149_1_alg».proof.Proof.Gen.Kernel.Frame
import proofs.«179098_j48155173323149_1_alg».proof.Proof.Gen.KernelIdeal
import proofs.«179098_j48155173323149_1_alg».proof.Proof.Gen.KernelIdeal.Frame
import proofs.«179098_j48155173323149_1_alg».proof.Proof.Gen.ReferenceIdeal
import proofs.«179098_j48155173323149_1_alg».proof.Proof.Gen.ReferenceIdeal.Read
import proofs.«179098_j48155173323149_1_alg».proof.Proof.Gen.Pre_finite_inputs
import proofs.«179098_j48155173323149_1_alg».proof.Proof.Network
import proofs.«179098_j48155173323149_1_alg».proof.Proof.KernelRun
import proofs.«179098_j48155173323149_1_alg».proof.Proof.ResultValue
import proofs.«179098_j48155173323149_1_alg».proof.Proof.SageRegion0
import proofs.«179098_j48155173323149_1_alg».proof.Proof.SageRegion1
import proofs.«179098_j48155173323149_1_alg».proof.Proof.SageRegion2
import proofs.«179098_j48155173323149_1_alg».proof.Proof.MlpRegion
import proofs.«179098_j48155173323149_1_alg».proof.Proof.RefValue
import Idealize.ShloMosaic.Adequacy
import Idealize.ShloMosaic.Init

noncomputable section

/-! ## The claims -/

namespace Cert.Proof

open Idealize.ShloMosaic Idealize.ShloMosaic.TcCoe Idealize.SL.Sem Cert.GraphSage

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The four regions' values, from their bodies. -/
theorem regionValues : Cert.KernelIdeal.ResultValue.RegionValues :=
  ⟨Cert.KernelIdeal.RegionValue.region0_value, Cert.KernelIdeal.RegionValue.region1_value,
   Cert.KernelIdeal.RegionValue.region2_value, Cert.KernelIdeal.RegionValue.region3_value⟩

/-- Both programs end with the network function of the sixteen arguments: the kernel with each layer's summands
    added as `(p + q) + b`, the reference as `(p + b) + q` — one function on the extended reals — from memories that
    agree on the arguments. -/
theorem algebraic : Cert.algebraic_KernelIdeal_ReferenceIdeal := by
  intro m ρ m' ρ' _ hagree
  refine ⟨fun c => network (sage (n := 50000)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.ResultValue.result_eq m ρ c regionValues), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v99_eq, Cert.ReferenceIdeal.RefValue.ref_value, network_sageR_eq,
      h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
   frame_kernel, frame_kernelIdeal, frame_referenceIdeal, preserves, algebraic⟩

end Cert.Proof

end
